-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x48x256x256 : Shape := ⟨4, ![16, 48, 256, 256]⟩
abbrev S16x512x256 : Shape := ⟨3, ![16, 512, 256]⟩
abbrev S256x32 : Shape := ⟨2, ![256, 32]⟩
abbrev S32 : Shape := ⟨1, ![32]⟩
abbrev S16x512x2 : Shape := ⟨3, ![16, 512, 2]⟩
abbrev S_ : Shape := ⟨0, ![]⟩

class Facts : Prop where
  bcast_S_S16x48x256x256 : S_.BroadcastsInDim S16x48x256x256 (![] : Fin 0 → Fin S16x48x256x256.rank)
  reducesTo_S16x48x256x256_S_d0_1_2_3 : S16x48x256x256.ReducesTo [0, 1, 2, 3] S_
  h_S_ : 0 < S_.numel
  bcast_S_S16x512x256 : S_.BroadcastsInDim S16x512x256 (![] : Fin 0 → Fin S16x512x256.rank)
  reducesTo_S16x512x256_S_d0_1_2 : S16x512x256.ReducesTo [0, 1, 2] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S16x48x256x256 .f32) (main_arg1 : FVec F S16x512x256 .f32) (main_arg2 : FVec F S256x32 .f32) (main_arg3 : FVec F S32 .f32) (main_arg4 : IVec S16x512x2 32) : IVec S_ 1 :=
  let main_v0 : FVec F S16x48x256x256 .f32 := Host.absf main_arg0
  let main_cst : FVec F S_ .f32 := constant S_ .f32 0x7F800000#32
  let main_v1 : FVec F S16x48x256x256 .f32 := broadcastInDim S16x48x256x256 ![] bcast_S_S16x48x256x256 main_cst
  let main_v2 : IVec S16x48x256x256 1 := cmpf .olt main_v0 main_v1
  let main_c : IVec S_ 1 := constantI S_ 1 1#1
  let main_v3 : IVec S_ 1 := (fun x v => Host.reduce IntOp.andi x v reducesTo_S16x48x256x256_S_d0_1_2_3 h_S_) main_v2 main_c
  let main_v4 : FVec F S16x512x256 .f32 := Host.absf main_arg1
  let main_cst_0 : FVec F S_ .f32 := constant S_ .f32 0x7F800000#32
  let main_v5 : FVec F S16x512x256 .f32 := broadcastInDim S16x512x256 ![] bcast_S_S16x512x256 main_cst_0
  let main_v6 : IVec S16x512x256 1 := cmpf .olt main_v4 main_v5
  let main_c_1 : IVec S_ 1 := constantI S_ 1 1#1
  let main_v7 : IVec S_ 1 := (fun x v => Host.reduce IntOp.andi x v reducesTo_S16x512x256_S_d0_1_2 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S16x48x256x256 : Shape := ⟨4, ![16, 48, 256, 256]⟩
abbrev S16x512x256 : Shape := ⟨3, ![16, 512, 256]⟩
abbrev S256x32 : Shape := ⟨2, ![256, 32]⟩
abbrev S32 : Shape := ⟨1, ![32]⟩
abbrev S16x512x2 : Shape := ⟨3, ![16, 512, 2]⟩
abbrev S8192x256 : Shape := ⟨2, ![8192, 256]⟩
abbrev S1x32 : Shape := ⟨2, ![1, 32]⟩
abbrev S8192x32 : Shape := ⟨2, ![8192, 32]⟩
abbrev S1024x256 : Shape := ⟨2, ![1024, 256]⟩
abbrev S1024x32 : Shape := ⟨2, ![1024, 32]⟩
abbrev S16x512x32 : Shape := ⟨3, ![16, 512, 32]⟩
abbrev S16x512x1 : Shape := ⟨3, ![16, 512, 1]⟩
abbrev S16x512 : Shape := ⟨2, ![16, 512]⟩
abbrev S16 : Shape := ⟨1, ![16]⟩
abbrev S16x1 : Shape := ⟨2, ![16, 1]⟩
abbrev S_ : Shape := ⟨0, ![]⟩
abbrev S16x256x256x32 : Shape := ⟨4, ![16, 256, 256, 32]⟩
abbrev S16x512x3 : Shape := ⟨3, ![16, 512, 3]⟩
abbrev S16x80x256x256 : Shape := ⟨4, ![16, 80, 256, 256]⟩
abbrev S1x48x64x256 : Shape := ⟨4, ![1, 48, 64, 256]⟩
abbrev S1x64x256x32 : Shape := ⟨4, ![1, 64, 256, 32]⟩
abbrev S1x80x64x256 : Shape := ⟨4, ![1, 80, 64, 256]⟩
abbrev S1x32x64x256 : Shape := ⟨4, ![1, 32, 64, 256]⟩

abbrev nBuf : Space → Nat
  | .hbm => 45
  | .vmem => 12
  | .smem => 0
  | _ => 0

abbrev bufTy : (tb : Table) → Fin (tcTables nBuf tb) → BufTy
  | .hbm, ⟨0, _⟩ => ⟨S16x48x256x256, .f32⟩
  | .hbm, ⟨1, _⟩ => ⟨S16x512x256, .f32⟩
  | .hbm, ⟨2, _⟩ => ⟨S256x32, .f32⟩
  | .hbm, ⟨3, _⟩ => ⟨S32, .f32⟩
  | .hbm, ⟨4, _⟩ => ⟨S16x512x2, .i32⟩
  | .hbm, ⟨5, _⟩ => ⟨S8192x256, .f32⟩
  | .hbm, ⟨6, _⟩ => ⟨S1x32, .f32⟩
  | .hbm, ⟨7, _⟩ => ⟨S8192x32, .f32⟩
  | .hbm, ⟨8, _⟩ => ⟨S16x512x32, .f32⟩
  | .hbm, ⟨9, _⟩ => ⟨S16x512x1, .i32⟩
  | .hbm, ⟨10, _⟩ => ⟨S16x512, .i32⟩
  | .hbm, ⟨11, _⟩ => ⟨S16x512x1, .i32⟩
  | .hbm, ⟨12, _⟩ => ⟨S16x512, .i32⟩
  | .hbm, ⟨13, _⟩ => ⟨S16, .i32⟩
  | .hbm, ⟨14, _⟩ => ⟨S16x1, .i32⟩
  | .hbm, ⟨15, _⟩ => ⟨S_, .f32⟩
  | .hbm, ⟨16, _⟩ => ⟨S16x256x256x32, .f32⟩
  | .hbm, ⟨17, _⟩ => ⟨S_, .i32⟩
  | .hbm, ⟨18, _⟩ => ⟨S16x1, .i32⟩
  | .hbm, ⟨19, _⟩ => ⟨S16x1, .i1⟩
  | .hbm, ⟨20, _⟩ => ⟨S_, .i32⟩
  | .hbm, ⟨21, _⟩ => ⟨S16x1, .i32⟩
  | .hbm, ⟨22, _⟩ => ⟨S16x1, .i32⟩
  | .hbm, ⟨23, _⟩ => ⟨S16x1, .i32⟩
  | .hbm, ⟨24, _⟩ => ⟨S_, .i32⟩
  | .hbm, ⟨25, _⟩ => ⟨S16x512, .i32⟩
  | .hbm, ⟨26, _⟩ => ⟨S16x512, .i1⟩
  | .hbm, ⟨27, _⟩ => ⟨S_, .i32⟩
  | .hbm, ⟨28, _⟩ => ⟨S16x512, .i32⟩
  | .hbm, ⟨29, _⟩ => ⟨S16x512, .i32⟩
  | .hbm, ⟨30, _⟩ => ⟨S16x512, .i32⟩
  | .hbm, ⟨31, _⟩ => ⟨S_, .i32⟩
  | .hbm, ⟨32, _⟩ => ⟨S16x512, .i32⟩
  | .hbm, ⟨33, _⟩ => ⟨S16x512, .i1⟩
  | .hbm, ⟨34, _⟩ => ⟨S_, .i32⟩
  | .hbm, ⟨35, _⟩ => ⟨S16x512, .i32⟩
  | .hbm, ⟨36, _⟩ => ⟨S16x512, .i32⟩
  | .hbm, ⟨37, _⟩ => ⟨S16x512, .i32⟩
  | .hbm, ⟨38, _⟩ => ⟨S16x512, .i32⟩
  | .hbm, ⟨39, _⟩ => ⟨S16x512x1, .i32⟩
  | .hbm, ⟨40, _⟩ => ⟨S16x512x1, .i32⟩
  | .hbm, ⟨41, _⟩ => ⟨S16x512x1, .i32⟩
  | .hbm, ⟨42, _⟩ => ⟨S16x512x3, .i32⟩
  | .hbm, ⟨43, _⟩ => ⟨S16x256x256x32, .f32⟩
  | .hbm, ⟨44, _⟩ => ⟨S16x80x256x256, .f32⟩
  | .local _ .vmem, ⟨0, _⟩ => ⟨S1024x256, .f32⟩
  | .local _ .vmem, ⟨1, _⟩ => ⟨S1024x256, .f32⟩
  | .local _ .vmem, ⟨2, _⟩ => ⟨S256x32, .f32⟩
  | .local _ .vmem, ⟨3, _⟩ => ⟨S1x32, .f32⟩
  | .local _ .vmem, ⟨4, _⟩ => ⟨S1024x32, .f32⟩
  | .local _ .vmem, ⟨5, _⟩ => ⟨S1024x32, .f32⟩
  | .local _ .vmem, ⟨6, _⟩ => ⟨S1x48x64x256, .f32⟩
  | .local _ .vmem, ⟨7, _⟩ => ⟨S1x48x64x256, .f32⟩
  | .local _ .vmem, ⟨8, _⟩ => ⟨S1x64x256x32, .f32⟩
  | .local _ .vmem, ⟨9, _⟩ => ⟨S1x64x256x32, .f32⟩
  | .local _ .vmem, ⟨10, _⟩ => ⟨S1x80x64x256, .f32⟩
  | .local _ .vmem, ⟨11, _⟩ => ⟨S1x80x64x256, .f32⟩
  | _, _ => ⟨S16x48x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x48x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x256x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x80x64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16x512x256_S8192x256 : S16x512x256.ShapeCasts S8192x256
  shapeCasts_S32_S1x32 : S32.ShapeCasts S1x32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S1024x32_S1024x32_0_0 : ∀ a, (![0, 0] : Fin 2 → Nat) a + S1024x32.size a ≤ S1024x32.size a
  h_S1024x32 : 0 < S1024x32.numel
  shapeCasts_S8192x32_S16x512x32 : S8192x32.ShapeCasts S16x512x32
  slices_S16x512x2_S16x512x1_0_0_0 : S16x512x2.Slices ![0, 0, 0] S16x512x1
  shapeCasts_S16x512x1_S16x512 : S16x512x1.ShapeCasts S16x512
  slices_S16x512x2_S16x512x1_0_0_1 : S16x512x2.Slices ![0, 0, 1] S16x512x1
  bcast_S16_S16x1_0 : S16.BroadcastsInDim S16x1 (![0] : Fin 1 → Fin S16x1.rank)
  bcast_S_S16x256x256x32 : S_.BroadcastsInDim S16x256x256x32 (![] : Fin 0 → Fin S16x256x256x32.rank)
  bcast_S_S16x1 : S_.BroadcastsInDim S16x1 (![] : Fin 0 → Fin S16x1.rank)
  bcast_S_S16x512 : S_.BroadcastsInDim S16x512 (![] : Fin 0 → Fin S16x512.rank)
  bcast_S16x1_S16x512_0_1 : S16x1.BroadcastsInDim S16x512 (![0, 1] : Fin 2 → Fin S16x512.rank)
  bcast_S16x512_S16x512x1_0_1 : S16x512.BroadcastsInDim S16x512x1 (![0, 1] : Fin 2 → Fin S16x512x1.rank)
  concatenates_S16x512x1_S16x512x1_S16x512x1_S16x512x3_d2 : Shape.Concatenates [S16x512x1, S16x512x1, S16x512x1] S16x512x3 2
  inb_S1x48x64x256_S1x48x64x256_0_0_0_0 : ∀ a, (![0, 0, 0, 0] : Fin 4 → Nat) a + S1x48x64x256.size a ≤ S1x48x64x256.size a
  h_S1x48x64x256 : 0 < S1x48x64x256.numel
  inb_S1x80x64x256_S1x48x64x256_0_0_0_0 : ∀ a, (![0, 0, 0, 0] : Fin 4 → Nat) a + S1x48x64x256.size a ≤ S1x80x64x256.size a
  inb_S1x64x256x32_S1x64x256x32_0_0_0_0 : ∀ a, (![0, 0, 0, 0] : Fin 4 → Nat) a + S1x64x256x32.size a ≤ S1x64x256x32.size a
  h_S1x64x256x32 : 0 < S1x64x256x32.numel
  shapeCasts_S1x64x256x32_S1x64x256x32 : S1x64x256x32.ShapeCasts S1x64x256x32
  transposes_S1x64x256x32_p0_3_1_2_S1x32x64x256 : S1x64x256x32.Transposes [0, 3, 1, 2] S1x32x64x256
  inb_S1x80x64x256_S1x32x64x256_0_48_0_0 : ∀ a, (![0, 48, 0, 0] : Fin 4 → Nat) a + S1x32x64x256.size a ≤ S1x80x64x256.size a
  h_S1x32x64x256 : 0 < S1x32x64x256.numel
  dot_S1024x256_S256x32_S1024x32_1_0_0_1_n_n_wf : DotDims.WF S1024x256 S256x32 S1024x32 [1] [0] [0] [1] [] []
  scatter_S16x256x256x32_S16x512x3_S16x512x32_2_012_012_2_wf : ScatterDims.WF S16x256x256x32 S16x512x3 S16x512x32 [2] [0, 1, 2] [0, 1, 2] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S8192x32.size a
  hwx0_3 : ∀ i : grid0.Coords, EltTy.bits .f32 = 32 ∨ (Rect.block (s := S8192x32) S1024x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x48x64x256.size a ≤ S16x48x256x256.size a
  hwx1_0 : ∀ i : grid1.Coords, EltTy.bits .f32 = 32 ∨ (Rect.block (s := S16x48x256x256) S1x48x64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x256x32.size a ≤ S16x256x256x32.size a
  hwx1_1 : ∀ i : grid1.Coords, EltTy.bits .f32 = 32 ∨ (Rect.block (s := S16x256x256x32) S1x64x256x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x80x64x256.size a ≤ S16x80x256x256.size a
  hwx1_2 : ∀ i : grid1.Coords, EltTy.bits .f32 = 32 ∨ (Rect.block (s := S16x80x256x256) S1x80x64x256.size (cc1_transform_2 i) (hinb1_2 i)).WholeWords (EltTy.packing .f32)

variable [Facts₀]

def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def scatter_S16x256x256x32_S16x512x3_S16x512x32_2_012_012_2 : ScatterDims S16x256x256x32 S16x512x3 S16x512x32 where
  updateWindowDims := [2]
  insertedWindowDims := [0, 1, 2]
  scatterDimsToOperandDims := [0, 1, 2]
  indexVectorDim := 2
  wf := scatter_S16x256x256x32_S16x512x3_S16x512x32_2_012_012_2_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x48x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x64x256x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x80x64x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x48x256x256 : Shape := ⟨4, ![16, 48, 256, 256]⟩
abbrev S16x512x256 : Shape := ⟨3, ![16, 512, 256]⟩
abbrev S256x32 : Shape := ⟨2, ![256, 32]⟩
abbrev S32 : Shape := ⟨1, ![32]⟩
abbrev S16x512x2 : Shape := ⟨3, ![16, 512, 2]⟩
abbrev S16x512x32 : Shape := ⟨3, ![16, 512, 32]⟩
abbrev S1x1x32 : Shape := ⟨3, ![1, 1, 32]⟩
abbrev S16x512x1 : Shape := ⟨3, ![16, 512, 1]⟩
abbrev S16x512 : Shape := ⟨2, ![16, 512]⟩
abbrev S16 : Shape := ⟨1, ![16]⟩
abbrev S16x1 : Shape := ⟨2, ![16, 1]⟩
abbrev S_ : Shape := ⟨0, ![]⟩
abbrev S16x256x256x32 : Shape := ⟨4, ![16, 256, 256, 32]⟩
abbrev S16x512x3 : Shape := ⟨3, ![16, 512, 3]⟩
abbrev S16x32x256x256 : Shape := ⟨4, ![16, 32, 256, 256]⟩
abbrev S16x80x256x256 : Shape := ⟨4, ![16, 80, 256, 256]⟩

abbrev nBuf : Space → Nat
  | .hbm => 46
  | .vmem => 0
  | .smem => 0
  | _ => 0

abbrev bufTy : (tb : Table) → Fin (tcTables nBuf tb) → BufTy
  | .hbm, ⟨0, _⟩ => ⟨S16x48x256x256, .f32⟩
  | .hbm, ⟨1, _⟩ => ⟨S16x512x256, .f32⟩
  | .hbm, ⟨2, _⟩ => ⟨S256x32, .f32⟩
  | .hbm, ⟨3, _⟩ => ⟨S32, .f32⟩
  | .hbm, ⟨4, _⟩ => ⟨S16x512x2, .i32⟩
  | .hbm, ⟨5, _⟩ => ⟨S16x512x32, .f32⟩
  | .hbm, ⟨6, _⟩ => ⟨S1x1x32, .f32⟩
  | .hbm, ⟨7, _⟩ => ⟨S16x512x32, .f32⟩
  | .hbm, ⟨8, _⟩ => ⟨S16x512x32, .f32⟩
  | .hbm, ⟨9, _⟩ => ⟨S16x512x1, .i32⟩
  | .hbm, ⟨10, _⟩ => ⟨S16x512, .i32⟩
  | .hbm, ⟨11, _⟩ => ⟨S16x512x1, .i32⟩
  | .hbm, ⟨12, _⟩ => ⟨S16x512, .i32⟩
  | .hbm, ⟨13, _⟩ => ⟨S16, .i32⟩
  | .hbm, ⟨14, _⟩ => ⟨S16x1, .i32⟩
  | .hbm, ⟨15, _⟩ => ⟨S_, .f32⟩
  | .hbm, ⟨16, _⟩ => ⟨S16x256x256x32, .f32⟩
  | .hbm, ⟨17, _⟩ => ⟨S_, .i32⟩
  | .hbm, ⟨18, _⟩ => ⟨S16x1, .i32⟩
  | .hbm, ⟨19, _⟩ => ⟨S16x1, .i1⟩
  | .hbm, ⟨20, _⟩ => ⟨S_, .i32⟩
  | .hbm, ⟨21, _⟩ => ⟨S16x1, .i32⟩
  | .hbm, ⟨22, _⟩ => ⟨S16x1, .i32⟩
  | .hbm, ⟨23, _⟩ => ⟨S16x1, .i32⟩
  | .hbm, ⟨24, _⟩ => ⟨S_, .i32⟩
  | .hbm, ⟨25, _⟩ => ⟨S16x512, .i32⟩
  | .hbm, ⟨26, _⟩ => ⟨S16x512, .i1⟩
  | .hbm, ⟨27, _⟩ => ⟨S_, .i32⟩
  | .hbm, ⟨28, _⟩ => ⟨S16x512, .i32⟩
  | .hbm, ⟨29, _⟩ => ⟨S16x512, .i32⟩
  | .hbm, ⟨30, _⟩ => ⟨S16x512, .i32⟩
  | .hbm, ⟨31, _⟩ => ⟨S_, .i32⟩
  | .hbm, ⟨32, _⟩ => ⟨S16x512, .i32⟩
  | .hbm, ⟨33, _⟩ => ⟨S16x512, .i1⟩
  | .hbm, ⟨34, _⟩ => ⟨S_, .i32⟩
  | .hbm, ⟨35, _⟩ => ⟨S16x512, .i32⟩
  | .hbm, ⟨36, _⟩ => ⟨S16x512, .i32⟩
  | .hbm, ⟨37, _⟩ => ⟨S16x512, .i32⟩
  | .hbm, ⟨38, _⟩ => ⟨S16x512, .i32⟩
  | .hbm, ⟨39, _⟩ => ⟨S16x512x1, .i32⟩
  | .hbm, ⟨40, _⟩ => ⟨S16x512x1, .i32⟩
  | .hbm, ⟨41, _⟩ => ⟨S16x512x1, .i32⟩
  | .hbm, ⟨42, _⟩ => ⟨S16x512x3, .i32⟩
  | .hbm, ⟨43, _⟩ => ⟨S16x256x256x32, .f32⟩
  | .hbm, ⟨44, _⟩ => ⟨S16x32x256x256, .f32⟩
  | .hbm, ⟨45, _⟩ => ⟨S16x80x256x256, .f32⟩
  | _, _ => ⟨S16x48x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S16x512x32_0_1_2 : S1x1x32.BroadcastsInDim S16x512x32 (![0, 1, 2] : Fin 3 → Fin S16x512x32.rank)
  slices_S16x512x2_S16x512x1_0_0_0 : S16x512x2.Slices ![0, 0, 0] S16x512x1
  shapeCasts_S16x512x1_S16x512 : S16x512x1.ShapeCasts S16x512
  slices_S16x512x2_S16x512x1_0_0_1 : S16x512x2.Slices ![0, 0, 1] S16x512x1
  bcast_S16_S16x1_0 : S16.BroadcastsInDim S16x1 (![0] : Fin 1 → Fin S16x1.rank)
  bcast_S_S16x256x256x32 : S_.BroadcastsInDim S16x256x256x32 (![] : Fin 0 → Fin S16x256x256x32.rank)
  bcast_S_S16x1 : S_.BroadcastsInDim S16x1 (![] : Fin 0 → Fin S16x1.rank)
  bcast_S_S16x512 : S_.BroadcastsInDim S16x512 (![] : Fin 0 → Fin S16x512.rank)
  bcast_S16x1_S16x512_0_1 : S16x1.BroadcastsInDim S16x512 (![0, 1] : Fin 2 → Fin S16x512.rank)
  bcast_S16x512_S16x512x1_0_1 : S16x512.BroadcastsInDim S16x512x1 (![0, 1] : Fin 2 → Fin S16x512x1.rank)
  concatenates_S16x512x1_S16x512x1_S16x512x1_S16x512x3_d2 : Shape.Concatenates [S16x512x1, S16x512x1, S16x512x1] S16x512x3 2
  transposes_S16x256x256x32_S16x32x256x256_0_3_1_2 : S16x256x256x32.Transposes [0, 3, 1, 2] S16x32x256x256
  concatenates_S16x48x256x256_S16x32x256x256_S16x80x256x256_d1 : Shape.Concatenates [S16x48x256x256, S16x32x256x256] S16x80x256x256 1
  dot_S16x512x256_S256x32_S16x512x32_2_0_01_1_n_n_wf : DotDims.WF S16x512x256 S256x32 S16x512x32 [2] [0] [0, 1] [1] [] []
  scatter_S16x256x256x32_S16x512x3_S16x512x32_2_012_012_2_wf : ScatterDims.WF S16x256x256x32 S16x512x3 S16x512x32 [2] [0, 1, 2] [0, 1, 2] 2

variable [Facts₀]

def dot_S16x512x256_S256x32_S16x512x32_2_0_01_1_n_n : DotDims S16x512x256 S256x32 S16x512x32 where
  lhsContracting := [2]
  rhsContracting := [0]
  lhsNonContracting := [0, 1]
  rhsNonContracting := [1]
  lhsBatch := []
  rhsBatch := []
  wf := dot_S16x512x256_S256x32_S16x512x32_2_0_01_1_n_n_wf
def scatter_S16x256x256x32_S16x512x3_S16x512x32_2_012_012_2 : ScatterDims S16x256x256x32 S16x512x3 S16x512x32 where
  updateWindowDims := [2]
  insertedWindowDims := [0, 1, 2]
  scatterDimsToOperandDims := [0, 1, 2]
  indexVectorDim := 2
  wf := scatter_S16x256x256x32_S16x512x3_S16x512x32_2_012_012_2_wf

class Facts : Prop extends Facts₀ where

variable [Facts]
-- ==== Proof.KBodies.lean ====
/-
  The two kernel bodies of this program, each run once at a generic grid point.

  Region 0 multiplies a 1024-row block of the flattened embeddings by the whole 256x32 weight matrix and adds the bias
  row; region 1 assembles one (batch, 64-row band) block of the result: channels 0..47 are the spatial block copied,
  channels 48..79 the scattered block with its channel axis moved from last to second place.

  Everything is stated at a parameter `V`, the contents of the unscoped buffers when the region is entered, and at any
  float instance.  For each region: a window's block at a point read off `V`; what the body leaves in the output
  window's staging buffer as a function of the input blocks (its stores, last first); the body's triple; the proof
  data of the pipeline (inputs left in place, the output at that function); and the pipeline's body obligation.
-/
import proofs.«125766_j36103495090600_2_alg».proof.Proof.Gen.Kernel.Launch
import proofs.«125766_j36103495090600_2_alg».proof.Proof.Gen.Kernel.Skeleton
import proofs.«125766_j36103495090600_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Bodies

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the projection -/

/-- Window `w`'s block at point `t` of region 0, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window of region 0 holds its block at every point, fetched there or not (the weight matrix and the bias
    row are fetched once: their block index never moves). -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole rectangles the projection body loads and stores. -/
abbrev rEmb : Rect S1024x256 := Rect.unit (s := S1024x256) ![0, 0] S1024x256.size inb_S1024x256_S1024x256_0_0
abbrev rWgt : Rect S256x32 := Rect.unit (s := S256x32) ![0, 0] S256x32.size inb_S256x32_S256x32_0_0
abbrev rBias : Rect S1x32 := Rect.unit (s := S1x32) ![0, 0] S1x32.size inb_S1x32_S1x32_0_0
abbrev rProj : Rect S1024x32 := Rect.unit (s := S1024x32) ![0, 0] S1024x32.size inb_S1024x32_S1024x32_0_0

/-- What the projection body leaves in its output block: its one store, of the product plus the bias. -/
def projOut (x0 : Vec F S1024x256 .f32) (x1 : Vec F S256x32 .f32) (x2 : Vec F S1x32 .f32) : Vec F S1024x32 .f32 :=
  View.canon [⟨rProj, k0_pay1 (View.ld x0 rEmb) (View.ld x1 rWgt) (View.ld x2 rBias)⟩]

/-- That store covers the block. -/
theorem projCover (p0 : Vec F S1024x32 .f32) (y : S1024x32.Idx) :
    ∃ pc ∈ ([⟨rProj, p0⟩] : List (View.Piece (Elt F) S1024x32 .f32)), y ∈ pc.1.set :=
  View.cover_of_tiled [⟨rProj, p0⟩] S1024x32.size (by rfl) y

set_option maxHeartbeats 1000000 in
/-- The projection body on whole staging memrefs: the three inputs read and left as they were, the output left at
    `projOut` of them whatever it held. -/
theorem projTriple (c : Dev nD) (E : Set ℕ) (i : grid0.Coords) (arg1 : Memref sig .tc .vmem S1024x256 .f32) (harg1 : arg1.IsWhole)
    (arg2 : Memref sig .tc .vmem S256x32 .f32) (harg2 : arg2.IsWhole) (arg3 : Memref sig .tc .vmem S1x32 .f32) (harg3 : arg3.IsWhole)
    (arg4 : Memref sig .tc .vmem S1024x32 .f32) (harg4 : arg4.IsWhole)
    (x0 : Vec F S1024x256 .f32) (x1 : Vec F S256x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projOut x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-- Region 0's proof data on core `c`: the arrays as the region finds them; after the body each input at its block,
    the output at `projOut` of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => projOut (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = projOut (blk0 V c 0 t) (blk0 V c 1 t) (blk0 V c 2 t) := by dsimp only [dat0]

theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d
theorem dat0_before2 (c : Dev nD) (t : Fin cfg0.N) (d) : (dat0 V c).before 2 t d = blk0 V c 2 t :=
  held0_2 V (dat0 V c) (dat0_A V c 2) (dat0_after2 V c) t d

/-- What the projection body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (projTriple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Region 0's body obligation, at every point. -/
theorem obligation0 (c : Dev nD) : BodyObligation (dat0 (F := F) V c) (defs₀ (F := F)) Variants.none () Set.univ := fun t => by
  rw [bigSep_W0, bigSep_W0]
  exact body0 V c t

/-! # Region 1: the assembly of the result -/

/-- Window `w`'s block at point `t` of region 1, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The rectangles the assembling body loads and stores: the two input blocks whole, and the output block's channels
    0..47 and 48..79. -/
abbrev rSpat : Rect S1x48x64x256 := Rect.unit (s := S1x48x64x256) ![0, 0, 0, 0] S1x48x64x256.size inb_S1x48x64x256_S1x48x64x256_0_0_0_0
abbrev rScat : Rect S1x64x256x32 := Rect.unit (s := S1x64x256x32) ![0, 0, 0, 0] S1x64x256x32.size inb_S1x64x256x32_S1x64x256x32_0_0_0_0
abbrev rLow : Rect S1x80x64x256 := Rect.unit (s := S1x80x64x256) ![0, 0, 0, 0] S1x48x64x256.size inb_S1x80x64x256_S1x48x64x256_0_0_0_0
abbrev rHigh : Rect S1x80x64x256 := Rect.unit (s := S1x80x64x256) ![0, 48, 0, 0] S1x32x64x256.size inb_S1x80x64x256_S1x32x64x256_0_48_0_0

/-- What the assembling body leaves in its output block: its two stores, the later first — the scattered block
    with its channel axis moved into channels 48..79, the spatial block into channels 0..47. -/
def catOut (x0 : Vec F S1x48x64x256 .f32) (x1 : Vec F S1x64x256x32 .f32) : Vec F S1x80x64x256 .f32 :=
  View.canon [⟨rHigh, k1_pay1 (View.ld x1 rScat)⟩, ⟨rLow, View.ld x0 rSpat⟩]

/-- The two stores cover the block: every channel is below 48 or not. -/
theorem catCover (p0 : Vec F S1x32x64x256 .f32) (p1 : Vec F S1x48x64x256 .f32) (y : S1x80x64x256.Idx) :
    ∃ pc ∈ ([⟨rHigh, p0⟩, ⟨rLow, p1⟩] : List (View.Piece (Elt F) S1x80x64x256 .f32)), y ∈ pc.1.set :=
  View.cover_of_tiledBy [⟨rHigh, p0⟩, ⟨rLow, p1⟩] ![1, 16, 64, 256] (by sl_kernel_rfl) y

set_option maxHeartbeats 1000000 in
/-- The assembling body on whole staging memrefs: the two inputs read and left as they were, the output left at
    `catOut` of them whatever it held. -/
theorem catTriple (c : Dev nD) (E : Set ℕ) (i : grid1.Coords) (arg2 : Memref sig .tc .vmem S1x48x64x256 .f32) (harg2 : arg2.IsWhole)
    (arg3 : Memref sig .tc .vmem S1x64x256x32 .f32) (harg3 : arg3.IsWhole) (arg4 : Memref sig .tc .vmem S1x80x64x256 .f32) (harg4 : arg4.IsWhole)
    (x0 : Vec F S1x48x64x256 .f32) (x1 : Vec F S1x64x256x32 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (catOut x0 x1)) -∗ K ⟨⟩))
      ⊢ wp frame (wpE (defs₀ (F := F)) Variants.none c none) E (cc1__concat_kernel i arg2 harg2 arg3 harg3 arg4 harg4) K := by
  simp only [cc1__concat_kernel_eq_skeleton]; unfold cc1__concat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (catCover _ _)

/-- Region 1's proof data on core `c`: the arrays as the region finds them; after the body each input at its block,
    the output at `catOut` of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => catOut (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) :
    (dat1 V c).after 2 t = catOut (blk1 V c 0 t) (blk1 V c 1 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d

/-- What the assembling body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (catTriple c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Region 1's body obligation, at every point. -/
theorem obligation1 (c : Dev nD) : BodyObligation (dat1 (F := F) V c) (defs₀ (F := F)) Variants.none () Set.univ := fun t => by
  rw [bigSep_W1, bigSep_W1]
  exact body1 V c t

end Cert.Kernel.Bodies

end
-- ==== Proof.KWhole.lean ====
/-
  The whole run of this program: two host stretches and two kernel regions, in order.

  The contents of every unscoped buffer are followed from the launch to the return: after a host stretch they are the
  stretch's operations applied to what it found; after a region its arrays hold what the pipeline's write-backs leave
  (an input array what it held, the output array each point's block in place) and every other buffer what it held.
  Each region is entered from "every unscoped buffer at the boundary's contents, the generator register somewhere,
  nothing owed" and left in the same form at the next boundary, so the four segments chain, and every weakly fair
  execution of @main terminates with every unscoped buffer at the last boundary's contents.  No host operation writes
  an argument and each region only reads the arguments it is handed, so the arguments end as launched.
-/
import proofs.«125766_j36103495090600_2_alg».proof.Proof.KBodies
import proofs.«125766_j36103495090600_2_alg».proof.Proof.Gen.Kernel.Regions

set_option maxRecDepth 16384

noncomputable section

namespace Cert.Kernel.Whole

open Cert.Kernel Cert.Kernel.Gen Cert.Kernel.Bodies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m ((c : Dev nD), b)
/-- After the first host stretch (the two reshapes): region 0's entry. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev X2 : (c : Dev nD) → (b : Ref sig .tc) → Buf (Elt F) ((c : Thread nD τ).loc b) := fun c b => B2 m c b
theorem left0 (c : Dev nD) (w : Fin cfg0.W) : (dat0 (E1 m) c).arrAt w cfg0.N = X2 m c (Pipeline.arrRef spec0 w) :=
  (B2_arr m c w).symm
theorem kept0 (c : Dev nD) : ∀ b, b ∉ Finset.univ.image (Pipeline.arrRef spec0) → X2 m c b = E1 m c b :=
  fun b hb => B2_of_ne m c b fun w e => hb (Finset.mem_image.mpr ⟨w, Finset.mem_univ _, e⟩)

/-- After the second host stretch (the index triples and the scatter): region 1's entry. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At region 1's exit. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev X4 : (c : Dev nD) → (b : Ref sig .tc) → Buf (Elt F) ((c : Thread nD τ).loc b) := fun c b => B4 m c b
theorem left1 (c : Dev nD) (w : Fin cfg1.W) : (dat1 (E3 m) c).arrAt w cfg1.N = X4 m c (Pipeline.arrRef spec1 w) :=
  (B4_arr m c w).symm
theorem kept1 (c : Dev nD) : ∀ b, b ∉ Finset.univ.image (Pipeline.arrRef spec1) → X4 m c b = E3 m c b :=
  fun b hb => B4_of_ne m c b fun w e => hb (Finset.mem_image.mpr ⟨w, Finset.mem_univ _, e⟩)

/-! ### A buffer no host operation writes keeps its contents across a stretch -/

theorem B1_of (c : Dev nD) (r : Ref sig .tc) (h : r ∉ hostOps0_W) : B1 m c (Proc.devRef .tc r) = B0 m c (Proc.devRef .tc r) :=
  StableHlo.after_of_writes_sub hostOps0 _ hostOps0_writes h
theorem B3_of (c : Dev nD) (r : Ref sig .tc) (h : r ∉ hostOps1_W) : B3 m c (Proc.devRef .tc r) = B2 m c (Proc.devRef .tc r) :=
  StableHlo.after_of_writes_sub hostOps1 _ hostOps1_writes h

/-! ### The arguments end as launched -/

/-- The spatial array: region 1 reads it through an input window. -/
theorem B4_main_arg0 (c : Dev nD) : B4 m c (Proc.devRef .tc main_arg0) = m ((c : Thread nD τ).loc main_arg0) :=
  calc B4 m c (Proc.devRef .tc main_arg0)
    _ = B3 m c (Proc.devRef .tc main_arg0) := (B4_arr m c 0).trans (((dat1 (E3 m) c).arrAt_in 0 rfl _).trans (dat1_A (E3 m) c 0))
    _ = B2 m c (Proc.devRef .tc main_arg0) := B3_of m c main_arg0 (by decide)
    _ = B1 m c (Proc.devRef .tc main_arg0) := B2_of_ne m c main_arg0 (by decide)
    _ = B0 m c (Proc.devRef .tc main_arg0) := B1_of m c main_arg0 (by decide)
    _ = m ((c : Thread nD τ).loc main_arg0) := rfl
/-- The embeddings: only the first reshape reads them. -/
theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_of_ne m c main_arg1 (by decide)
    _ = B2 m c (Proc.devRef .tc main_arg1) := B3_of m c main_arg1 (by decide)
    _ = B1 m c (Proc.devRef .tc main_arg1) := B2_of_ne m c main_arg1 (by decide)
    _ = B0 m c (Proc.devRef .tc main_arg1) := B1_of m c main_arg1 (by decide)
    _ = m ((c : Thread nD τ).loc main_arg1) := rfl
/-- The weights: region 0 reads them through an input window. -/
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := B3_of m c main_arg2 (by decide)
    _ = B1 m c (Proc.devRef .tc main_arg2) := (B2_arr m c 1).trans (((dat0 (E1 m) c).arrAt_in 1 rfl _).trans (dat0_A (E1 m) c 1))
    _ = B0 m c (Proc.devRef .tc main_arg2) := B1_of m c main_arg2 (by decide)
    _ = m ((c : Thread nD τ).loc main_arg2) := rfl
/-- The bias: only the second reshape reads it. -/
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := B3_of m c main_arg3 (by decide)
    _ = B1 m c (Proc.devRef .tc main_arg3) := B2_of_ne m c main_arg3 (by decide)
    _ = B0 m c (Proc.devRef .tc main_arg3) := B1_of m c main_arg3 (by decide)
    _ = m ((c : Thread nD τ).loc main_arg3) := rfl
/-- The entity locations: only the two slices read them. -/
theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_of_ne m c main_arg4 (by decide)
    _ = B2 m c (Proc.devRef .tc main_arg4) := B3_of m c main_arg4 (by decide)
    _ = B1 m c (Proc.devRef .tc main_arg4) := B2_of_ne m c main_arg4 (by decide)
    _ = B0 m c (Proc.devRef .tc main_arg4) := B1_of m c main_arg4 (by decide)
    _ = m ((c : Thread nD τ).loc main_arg4) := rfl

/-- The result array is region 1's output: each point's block written back in place. -/
theorem B4_main_v32 (c : Dev nD) : B4 m c (Proc.devRef .tc main_v32) = (dat1 (E3 m) c).arrAt 2 cfg1.N := B4_arr m c 2

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B4 m c) ∗ ∃ r, prngReg c r)

/-! ## The regions as segments -/

set_option backward.isDefEq.respectTransparency.types false in
/-- Region 0 over the thread state: entered from every unscoped buffer at `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c)⟩) (run_all m ρ)

/-- The run with the result named: the result array ends at region 1's write-backs, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v32) = (dat1 (E3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v32 (by decide))).trans (B4_main_v32 m c),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c)⟩) (run_all m ρ)

end Cert.Kernel.Whole

end
-- ==== Proof.KIBodies.lean ====
/-
  The two kernel bodies of this program, each run once at a generic grid point.

  Region 0 multiplies a 1024-row block of the flattened embeddings by the whole 256x32 weight matrix and adds the bias
  row; region 1 assembles one (batch, 64-row band) block of the result: channels 0..47 are the spatial block copied,
  channels 48..79 the scattered block with its channel axis moved from last to second place.

  Everything is stated at a parameter `V`, the contents of the unscoped buffers when the region is entered, and at any
  float instance.  For each region: a window's block at a point read off `V`; what the body leaves in the output
  window's staging buffer as a function of the input blocks (its stores, last first); the body's triple; the proof
  data of the pipeline (inputs left in place, the output at that function); and the pipeline's body obligation.
-/
import proofs.«125766_j36103495090600_2_alg».proof.Proof.Gen.KernelIdeal.Launch
import proofs.«125766_j36103495090600_2_alg».proof.Proof.Gen.KernelIdeal.Skeleton
import proofs.«125766_j36103495090600_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Bodies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the projection -/

/-- Window `w`'s block at point `t` of region 0, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window of region 0 holds its block at every point, fetched there or not (the weight matrix and the bias
    row are fetched once: their block index never moves). -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole rectangles the projection body loads and stores. -/
abbrev rEmb : Rect S1024x256 := Rect.unit (s := S1024x256) ![0, 0] S1024x256.size inb_S1024x256_S1024x256_0_0
abbrev rWgt : Rect S256x32 := Rect.unit (s := S256x32) ![0, 0] S256x32.size inb_S256x32_S256x32_0_0
abbrev rBias : Rect S1x32 := Rect.unit (s := S1x32) ![0, 0] S1x32.size inb_S1x32_S1x32_0_0
abbrev rProj : Rect S1024x32 := Rect.unit (s := S1024x32) ![0, 0] S1024x32.size inb_S1024x32_S1024x32_0_0

/-- What the projection body leaves in its output block: its one store, of the product plus the bias. -/
def projOut (x0 : Vec F S1024x256 .f32) (x1 : Vec F S256x32 .f32) (x2 : Vec F S1x32 .f32) : Vec F S1024x32 .f32 :=
  View.canon [⟨rProj, k0_pay1 (View.ld x0 rEmb) (View.ld x1 rWgt) (View.ld x2 rBias)⟩]

/-- That store covers the block. -/
theorem projCover (p0 : Vec F S1024x32 .f32) (y : S1024x32.Idx) :
    ∃ pc ∈ ([⟨rProj, p0⟩] : List (View.Piece (Elt F) S1024x32 .f32)), y ∈ pc.1.set :=
  View.cover_of_tiled [⟨rProj, p0⟩] S1024x32.size (by rfl) y

set_option maxHeartbeats 1000000 in
/-- The projection body on whole staging memrefs: the three inputs read and left as they were, the output left at
    `projOut` of them whatever it held. -/
theorem projTriple (c : Dev nD) (E : Set ℕ) (i : grid0.Coords) (arg1 : Memref sig .tc .vmem S1024x256 .f32) (harg1 : arg1.IsWhole)
    (arg2 : Memref sig .tc .vmem S256x32 .f32) (harg2 : arg2.IsWhole) (arg3 : Memref sig .tc .vmem S1x32 .f32) (harg3 : arg3.IsWhole)
    (arg4 : Memref sig .tc .vmem S1024x32 .f32) (harg4 : arg4.IsWhole)
    (x0 : Vec F S1024x256 .f32) (x1 : Vec F S256x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projOut x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-- Region 0's proof data on core `c`: the arrays as the region finds them; after the body each input at its block,
    the output at `projOut` of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => projOut (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = projOut (blk0 V c 0 t) (blk0 V c 1 t) (blk0 V c 2 t) := by dsimp only [dat0]

theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d
theorem dat0_before2 (c : Dev nD) (t : Fin cfg0.N) (d) : (dat0 V c).before 2 t d = blk0 V c 2 t :=
  held0_2 V (dat0 V c) (dat0_A V c 2) (dat0_after2 V c) t d

/-- What the projection body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (projTriple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Region 0's body obligation, at every point. -/
theorem obligation0 (c : Dev nD) : BodyObligation (dat0 (F := F) V c) (defs₀ (F := F)) Variants.none () Set.univ := fun t => by
  rw [bigSep_W0, bigSep_W0]
  exact body0 V c t

/-! # Region 1: the assembly of the result -/

/-- Window `w`'s block at point `t` of region 1, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The rectangles the assembling body loads and stores: the two input blocks whole, and the output block's channels
    0..47 and 48..79. -/
abbrev rSpat : Rect S1x48x64x256 := Rect.unit (s := S1x48x64x256) ![0, 0, 0, 0] S1x48x64x256.size inb_S1x48x64x256_S1x48x64x256_0_0_0_0
abbrev rScat : Rect S1x64x256x32 := Rect.unit (s := S1x64x256x32) ![0, 0, 0, 0] S1x64x256x32.size inb_S1x64x256x32_S1x64x256x32_0_0_0_0
abbrev rLow : Rect S1x80x64x256 := Rect.unit (s := S1x80x64x256) ![0, 0, 0, 0] S1x48x64x256.size inb_S1x80x64x256_S1x48x64x256_0_0_0_0
abbrev rHigh : Rect S1x80x64x256 := Rect.unit (s := S1x80x64x256) ![0, 48, 0, 0] S1x32x64x256.size inb_S1x80x64x256_S1x32x64x256_0_48_0_0

/-- What the assembling body leaves in its output block: its two stores, the later first — the scattered block
    with its channel axis moved into channels 48..79, the spatial block into channels 0..47. -/
def catOut (x0 : Vec F S1x48x64x256 .f32) (x1 : Vec F S1x64x256x32 .f32) : Vec F S1x80x64x256 .f32 :=
  View.canon [⟨rHigh, k1_pay1 (View.ld x1 rScat)⟩, ⟨rLow, View.ld x0 rSpat⟩]

/-- The two stores cover the block: every channel is below 48 or not. -/
theorem catCover (p0 : Vec F S1x32x64x256 .f32) (p1 : Vec F S1x48x64x256 .f32) (y : S1x80x64x256.Idx) :
    ∃ pc ∈ ([⟨rHigh, p0⟩, ⟨rLow, p1⟩] : List (View.Piece (Elt F) S1x80x64x256 .f32)), y ∈ pc.1.set :=
  View.cover_of_tiledBy [⟨rHigh, p0⟩, ⟨rLow, p1⟩] ![1, 16, 64, 256] (by sl_kernel_rfl) y

set_option maxHeartbeats 1000000 in
/-- The assembling body on whole staging memrefs: the two inputs read and left as they were, the output left at
    `catOut` of them whatever it held. -/
theorem catTriple (c : Dev nD) (E : Set ℕ) (i : grid1.Coords) (arg2 : Memref sig .tc .vmem S1x48x64x256 .f32) (harg2 : arg2.IsWhole)
    (arg3 : Memref sig .tc .vmem S1x64x256x32 .f32) (harg3 : arg3.IsWhole) (arg4 : Memref sig .tc .vmem S1x80x64x256 .f32) (harg4 : arg4.IsWhole)
    (x0 : Vec F S1x48x64x256 .f32) (x1 : Vec F S1x64x256x32 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (catOut x0 x1)) -∗ K ⟨⟩))
      ⊢ wp frame (wpE (defs₀ (F := F)) Variants.none c none) E (cc1__concat_kernel i arg2 harg2 arg3 harg3 arg4 harg4) K := by
  simp only [cc1__concat_kernel_eq_skeleton]; unfold cc1__concat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (catCover _ _)

/-- Region 1's proof data on core `c`: the arrays as the region finds them; after the body each input at its block,
    the output at `catOut` of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => catOut (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) :
    (dat1 V c).after 2 t = catOut (blk1 V c 0 t) (blk1 V c 1 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d

/-- What the assembling body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (catTriple c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Region 1's body obligation, at every point. -/
theorem obligation1 (c : Dev nD) : BodyObligation (dat1 (F := F) V c) (defs₀ (F := F)) Variants.none () Set.univ := fun t => by
  rw [bigSep_W1, bigSep_W1]
  exact body1 V c t

end Cert.KernelIdeal.Bodies

end
-- ==== Proof.KIWhole.lean ====
/-
  The whole run of this program: two host stretches and two kernel regions, in order.

  The contents of every unscoped buffer are followed from the launch to the return: after a host stretch they are the
  stretch's operations applied to what it found; after a region its arrays hold what the pipeline's write-backs leave
  (an input array what it held, the output array each point's block in place) and every other buffer what it held.
  Each region is entered from "every unscoped buffer at the boundary's contents, the generator register somewhere,
  nothing owed" and left in the same form at the next boundary, so the four segments chain, and every weakly fair
  execution of @main terminates with every unscoped buffer at the last boundary's contents.  No host operation writes
  an argument and each region only reads the arguments it is handed, so the arguments end as launched.
-/
import proofs.«125766_j36103495090600_2_alg».proof.Proof.KIBodies
import proofs.«125766_j36103495090600_2_alg».proof.Proof.Gen.KernelIdeal.Regions

set_option maxRecDepth 16384

noncomputable section

namespace Cert.KernelIdeal.Whole

open Cert.KernelIdeal Cert.KernelIdeal.Gen Cert.KernelIdeal.Bodies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m ((c : Dev nD), b)
/-- After the first host stretch (the two reshapes): region 0's entry. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev X2 : (c : Dev nD) → (b : Ref sig .tc) → Buf (Elt F) ((c : Thread nD τ).loc b) := fun c b => B2 m c b
theorem left0 (c : Dev nD) (w : Fin cfg0.W) : (dat0 (E1 m) c).arrAt w cfg0.N = X2 m c (Pipeline.arrRef spec0 w) :=
  (B2_arr m c w).symm
theorem kept0 (c : Dev nD) : ∀ b, b ∉ Finset.univ.image (Pipeline.arrRef spec0) → X2 m c b = E1 m c b :=
  fun b hb => B2_of_ne m c b fun w e => hb (Finset.mem_image.mpr ⟨w, Finset.mem_univ _, e⟩)

/-- After the second host stretch (the index triples and the scatter): region 1's entry. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At region 1's exit. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev X4 : (c : Dev nD) → (b : Ref sig .tc) → Buf (Elt F) ((c : Thread nD τ).loc b) := fun c b => B4 m c b
theorem left1 (c : Dev nD) (w : Fin cfg1.W) : (dat1 (E3 m) c).arrAt w cfg1.N = X4 m c (Pipeline.arrRef spec1 w) :=
  (B4_arr m c w).symm
theorem kept1 (c : Dev nD) : ∀ b, b ∉ Finset.univ.image (Pipeline.arrRef spec1) → X4 m c b = E3 m c b :=
  fun b hb => B4_of_ne m c b fun w e => hb (Finset.mem_image.mpr ⟨w, Finset.mem_univ _, e⟩)

/-! ### A buffer no host operation writes keeps its contents across a stretch -/

theorem B1_of (c : Dev nD) (r : Ref sig .tc) (h : r ∉ hostOps0_W) : B1 m c (Proc.devRef .tc r) = B0 m c (Proc.devRef .tc r) :=
  StableHlo.after_of_writes_sub hostOps0 _ hostOps0_writes h
theorem B3_of (c : Dev nD) (r : Ref sig .tc) (h : r ∉ hostOps1_W) : B3 m c (Proc.devRef .tc r) = B2 m c (Proc.devRef .tc r) :=
  StableHlo.after_of_writes_sub hostOps1 _ hostOps1_writes h

/-! ### The arguments end as launched -/

/-- The spatial array: region 1 reads it through an input window. -/
theorem B4_main_arg0 (c : Dev nD) : B4 m c (Proc.devRef .tc main_arg0) = m ((c : Thread nD τ).loc main_arg0) :=
  calc B4 m c (Proc.devRef .tc main_arg0)
    _ = B3 m c (Proc.devRef .tc main_arg0) := (B4_arr m c 0).trans (((dat1 (E3 m) c).arrAt_in 0 rfl _).trans (dat1_A (E3 m) c 0))
    _ = B2 m c (Proc.devRef .tc main_arg0) := B3_of m c main_arg0 (by decide)
    _ = B1 m c (Proc.devRef .tc main_arg0) := B2_of_ne m c main_arg0 (by decide)
    _ = B0 m c (Proc.devRef .tc main_arg0) := B1_of m c main_arg0 (by decide)
    _ = m ((c : Thread nD τ).loc main_arg0) := rfl
/-- The embeddings: only the first reshape reads them. -/
theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_of_ne m c main_arg1 (by decide)
    _ = B2 m c (Proc.devRef .tc main_arg1) := B3_of m c main_arg1 (by decide)
    _ = B1 m c (Proc.devRef .tc main_arg1) := B2_of_ne m c main_arg1 (by decide)
    _ = B0 m c (Proc.devRef .tc main_arg1) := B1_of m c main_arg1 (by decide)
    _ = m ((c : Thread nD τ).loc main_arg1) := rfl
/-- The weights: region 0 reads them through an input window. -/
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := B3_of m c main_arg2 (by decide)
    _ = B1 m c (Proc.devRef .tc main_arg2) := (B2_arr m c 1).trans (((dat0 (E1 m) c).arrAt_in 1 rfl _).trans (dat0_A (E1 m) c 1))
    _ = B0 m c (Proc.devRef .tc main_arg2) := B1_of m c main_arg2 (by decide)
    _ = m ((c : Thread nD τ).loc main_arg2) := rfl
/-- The bias: only the second reshape reads it. -/
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := B3_of m c main_arg3 (by decide)
    _ = B1 m c (Proc.devRef .tc main_arg3) := B2_of_ne m c main_arg3 (by decide)
    _ = B0 m c (Proc.devRef .tc main_arg3) := B1_of m c main_arg3 (by decide)
    _ = m ((c : Thread nD τ).loc main_arg3) := rfl
/-- The entity locations: only the two slices read them. -/
theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_of_ne m c main_arg4 (by decide)
    _ = B2 m c (Proc.devRef .tc main_arg4) := B3_of m c main_arg4 (by decide)
    _ = B1 m c (Proc.devRef .tc main_arg4) := B2_of_ne m c main_arg4 (by decide)
    _ = B0 m c (Proc.devRef .tc main_arg4) := B1_of m c main_arg4 (by decide)
    _ = m ((c : Thread nD τ).loc main_arg4) := rfl

/-- The result array is region 1's output: each point's block written back in place. -/
theorem B4_main_v32 (c : Dev nD) : B4 m c (Proc.devRef .tc main_v32) = (dat1 (E3 m) c).arrAt 2 cfg1.N := B4_arr m c 2

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B4 m c) ∗ ∃ r, prngReg c r)

/-! ## The regions as segments -/

set_option backward.isDefEq.respectTransparency.types false in
/-- Region 0 over the thread state: entered from every unscoped buffer at `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c)⟩) (run_all m ρ)

/-- The run with the result named: the result array ends at region 1's write-backs, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v32) = (dat1 (E3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v32 (by decide))).trans (B4_main_v32 m c),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c)⟩) (run_all m ρ)

end Cert.KernelIdeal.Whole

end
-- ==== Proof.KIProjPay.lean ====
/-
  The projection body's stored value at an index: entry `(p, q)` of the block is the `p`-th row of the embedding
  block times the `q`-th column of the weights, plus the bias entry `q`.  (Over the extended reals rounding to a
  narrower format is the identity, and the product into a zero accumulator is the plain sum.)
-/
import proofs.«125766_j36103495090600_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.ProjPay

open Cert.KernelIdeal Cert.KernelIdeal.Gen Idealize.ShloMosaic Idealize.ShloMosaic.ValueIdx

/-- The matrix product's record, under a short name. -/
abbrev D := dot_S1024x256_S256x32_S1024x32_1_0_0_1_n_n

theorem lhs0 (i : S1024x32.Idx) (q : D.contr.Idx) : (D.lhsIdx i q 0).val = (i 0).val := by
  unfold DotDims.lhsIdx
  rw [dif_neg (show ¬(0 : Fin S1024x256.rank) ∈ D.lhsBatch by decide), dif_pos (show (0 : Fin S1024x256.rank) ∈ D.lhsNonContracting by decide)]
  rfl
theorem lhs1 (i : S1024x32.Idx) (q : D.contr.Idx) : (D.lhsIdx i q 1).val = (q ⟨0, by decide⟩).val :=
  D.lhsIdx_val_of_single rfl i q
theorem rhs0 (i : S1024x32.Idx) (q : D.contr.Idx) : (D.rhsIdx i q 0).val = (q ⟨0, by decide⟩).val :=
  D.rhsIdx_val_of_single rfl i q
theorem rhs1 (i : S1024x32.Idx) (q : D.contr.Idx) : (D.rhsIdx i q 1).val = (i 1).val := by
  unfold DotDims.rhsIdx
  rw [dif_neg (show ¬(1 : Fin S256x32.rank) ∈ D.rhsBatch by decide), dif_pos (show (1 : Fin S256x32.rank) ∈ D.rhsNonContracting by decide)]
  rfl

/-- The product into the zero accumulator, at entry `(p, q)`: the sum over the contracted axis. -/
theorem matmul_at (a : FVec Ideal S1024x256 .bf16) (b : FVec Ideal S256x32 .bf16) (p : Fin 1024) (q : Fin 32) :
    matmul D none a b (constant (F := Ideal) S1024x32 .f32 0x00000000#32) (ix2 p q) = ∑ k : Fin 256, a (ix2 p k) * b (ix2 k q) := by
  refine (Ideal.matmul_constant_zero_apply D none a b (ix2 p q)).trans ?_
  rw [← Equiv.sum_comp (ValueIdx.contrEquiv1 D 256 rfl rfl).symm]
  refine Finset.sum_congr rfl fun k _ => ?_
  have hk := ValueIdx.contrEquiv1_symm_val D 256 rfl rfl k
  have el : D.lhsIdx (ix2 p q) ((ValueIdx.contrEquiv1 D 256 rfl rfl).symm k) = ix2 p k := funext fun a => Fin.ext (by
    match a with
    | ⟨0, _⟩ => exact lhs0 _ _
    | ⟨1, _⟩ => exact (lhs1 _ _).trans hk)
  have er : D.rhsIdx (ix2 p q) ((ValueIdx.contrEquiv1 D 256 rfl rfl).symm k) = ix2 k q := funext fun a => Fin.ext (by
    match a with
    | ⟨0, _⟩ => exact (rhs0 _ _).trans hk
    | ⟨1, _⟩ => exact rhs1 _ _)
  rw [el, er]

/-- The one-row bias broadcast down the rows, at entry `(p, q)`: the bias entry `q`. -/
theorem bias_at (v : FVec Ideal S1x32 .f32) (p : Fin 1024) (q : Fin 32) :
    broadcastTo S1024x32 v broadcasts_S1x32_S1024x32 (ix2 p q) = v (ix2 (0 : Fin 1) q) :=
  broadcastTo_apply v broadcasts_S1x32_S1024x32 (ix2 p q) (ix2 (0 : Fin 1) q) (fun a => by
    match a with
    | ⟨0, _⟩ => show (0 : Nat) = if (1 : Nat) = 1 then 0 else p.val; rw [if_pos rfl]
    | ⟨1, _⟩ => show q.val = if (32 : Nat) = 1 then 0 else q.val; rw [if_neg (by decide)])

/-- The stored value at entry `(p, q)`. -/
theorem pay_at (x0 : Vec Ideal S1024x256 .f32) (x1 : Vec Ideal S256x32 .f32) (x2 : Vec Ideal S1x32 .f32) (p : Fin 1024) (q : Fin 32) :
    k0_pay1 (F := Ideal) x0 x1 x2 (ix2 p q) = (∑ k : Fin 256, x0 (ix2 p k) * x1 (ix2 k q)) + x2 (ix2 (0 : Fin 1) q) := by
  unfold k0_pay1
  rw [shapeCast_self, shapeCast_self]
  refine (addf_apply _ _ _).trans ?_
  rw [matmul_at, bias_at]
  rfl

end Cert.KernelIdeal.ProjPay

end
-- ==== Proof.Spec.lean ====
/-
  What the program computes, as functions of its argument arrays, index by index, over the extended reals.

  * `entityVec e w b` : entity `(s, n)`'s channel vector, `∑ₖ e[s,n,k] · w[k,c] + b[c]`;
  * `flatVec x w b`   : the same over the flattened 8192 rows, with the bias as a one-row matrix;
  * `assembled sp sc` : the result, channel `ch` of which is the spatial array's channel `ch` when `ch < 48` and
    otherwise channel `ch - 48` of the scattered map, whose channel axis comes last.
-/
import Idealize.ShloMosaic.PureOps.Ideal
import Idealize.ShloMosaic.Lib.ValueIdx

noncomputable section

namespace Cert.ScatterSpec

open Idealize.ShloMosaic Idealize.ShloMosaic.ValueIdx

/-- Entity `(s, n)`'s channel vector: its embedding row times the weight matrix, plus the bias. -/
def entityVec (e : (⟨3, ![16, 512, 256]⟩ : Shape).Idx → EReal) (w : (⟨2, ![256, 32]⟩ : Shape).Idx → EReal)
    (b : (⟨1, ![32]⟩ : Shape).Idx → EReal) : (⟨3, ![16, 512, 32]⟩ : Shape).Idx → EReal :=
  fun i => (∑ k : Fin 256, e (ix3 (i 0) (i 1) k) * w (ix2 k (i 2))) + b (ix1 (i 2))

/-- The same over flattened rows: row `r` of `x` times the weight matrix, plus the one-row bias. -/
def flatVec (x : (⟨2, ![8192, 256]⟩ : Shape).Idx → EReal) (w : (⟨2, ![256, 32]⟩ : Shape).Idx → EReal)
    (b : (⟨2, ![1, 32]⟩ : Shape).Idx → EReal) : (⟨2, ![8192, 32]⟩ : Shape).Idx → EReal :=
  fun i => (∑ k : Fin 256, x (ix2 (i 0) k) * w (ix2 k (i 1))) + b (ix2 (0 : Fin 1) (i 1))

/-- The result: the 48 spatial channels, then the 32 channels of the scattered map moved from last to second place. -/
def assembled (sp : (⟨4, ![16, 48, 256, 256]⟩ : Shape).Idx → EReal) (sc : (⟨4, ![16, 256, 256, 32]⟩ : Shape).Idx → EReal) :
    (⟨4, ![16, 80, 256, 256]⟩ : Shape).Idx → EReal :=
  fun i => if h : (i 1).val < 48 then sp (ix4 (i 0) (⟨(i 1).val, h⟩ : Fin 48) (i 2) (i 3))
    else sc (ix4 (i 0) (i 2) (i 3) (⟨(i 1).val - 48, by have h80 : (i 1).val < 80 := (i 1).isLt; omega⟩ : Fin 32))

end Cert.ScatterSpec

end
-- ==== Proof.KIProj.lean ====
/-
  Region 0 as one function of the arrays it finds.

  The grid has eight points; point `t` reads rows `1024·t … 1024·t + 1023` of the flattened embeddings, the whole
  weight matrix and the whole bias row, and writes back rows `1024·t …` of the output.  So what point `t` writes back
  is block `t` of `flatVec` of the three input arrays; the eight blocks tile the 8192 rows; hence the output array
  ends as `flatVec` of the inputs.
-/
import proofs.«125766_j36103495090600_2_alg».proof.Proof.KIBodies
import proofs.«125766_j36103495090600_2_alg».proof.Proof.KIProjPay
import proofs.«125766_j36103495090600_2_alg».proof.Proof.Spec

set_option maxRecDepth 16384

noncomputable section

namespace Cert.KernelIdeal.ProjValue

open Cert.KernelIdeal Cert.KernelIdeal.Gen Cert.KernelIdeal.Bodies Cert.ScatterSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- Where the blocks sit: the embeddings' and the output's row-block index is the point's number, every other block
    index is zero. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The stored value at entry `(p, q)` of a block whose inputs are rows `r + ·` of `X`, all of `W` and all of `B`:
    entry `(r + p, q)` of `flatVec X W B`. -/
theorem stored_eq (X : (⟨2, ![8192, 256]⟩ : Shape).Idx → EReal) (W : (⟨2, ![256, 32]⟩ : Shape).Idx → EReal)
    (B : (⟨2, ![1, 32]⟩ : Shape).Idx → EReal)
    (x0 : Vec Ideal S1024x256 .f32) (x1 : Vec Ideal S256x32 .f32) (x2 : Vec Ideal S1x32 .f32)
    (p : Fin 1024) (q : Fin 32) (row : Fin 8192)
    (h0 : ∀ k : Fin 256, x0 (ix2 p k) = X (ix2 row k)) (h1 : ∀ k : Fin 256, x1 (ix2 k q) = W (ix2 k q))
    (h2 : x2 (ix2 (0 : Fin 1) q) = B (ix2 (0 : Fin 1) q)) :
    k0_pay1 (F := Ideal) x0 x1 x2 (ix2 p q) = flatVec X W B (ix2 row q) := by
  rw [ProjPay.pay_at, h2]
  show _ = (∑ k : Fin 256, X (ix2 row k) * W (ix2 k q)) + B (ix2 (0 : Fin 1) q)
  refine congrArg (· + B (ix2 (0 : Fin 1) q)) (Finset.sum_congr rfl fun k _ => ?_)
  rw [h0 k, h1 k]

/-- What point `t` writes back is block `t` of `flatVec` of the arrays the region finds. -/
theorem flushed0 (c : Dev nD) (t : Fin cfg0.N) :
    (dat0 V c).flushed 3 t = ((cfg0.win 3).blk t).view.read (Elt Ideal) (flatVec (V c main_v0) (V c main_arg2) (V c main_v1)) := by
  show (cfg0.win 3).cut (grid0.coords t) ((dat0 V c).after 3 t) = _
  rw [dat0_after3]
  unfold projOut
  rw [View.canon_unit_zero zero2]
  simp only [View.ld_unit_zero (S := S1024x256) zero2, View.ld_unit_zero (S := S256x32) zero2, View.ld_unit_zero (S := S1x32) zero2]
  obtain ⟨e00, e01, e10, e11, e20, e21, e30, e31⟩ := block_index t
  have ht : t.val < 8 := lt_of_lt_of_eq t.isLt (N_0 : cfg0.N = 8)
  refine funext fun (j : S1024x32.Idx) => ?_
  obtain ⟨p, q, rfl⟩ : ∃ (p : Fin 1024) (q : Fin 32), j = ix2 p q := ⟨j 0, j 1, eq_ix2 j⟩
  have hrow : t.val * 1024 + p.val < 8192 := by have := p.isLt; omega
  have hout : ((cfg0.win 3).blk t).view.emb (ix2 p q) = (ix2 (⟨t.val * 1024 + p.val, hrow⟩ : Fin 8192) q : S8192x32.Idx) := by
    funext a; apply Fin.ext
    match a with
    | ⟨0, _⟩ => show win0_3.index t (0 : Fin 2) * 1024 + 1 * p.val = t.val * 1024 + p.val; rw [e30]; omega
    | ⟨1, _⟩ => show win0_3.index t (1 : Fin 2) * 32 + 1 * q.val = q.val; rw [e31]; omega
  show k0_pay1 (F := Ideal) (blk0 V c 0 t) (blk0 V c 1 t) (blk0 V c 2 t) (ix2 p q)
      = flatVec (V c main_v0) (V c main_arg2) (V c main_v1) (((cfg0.win 3).blk t).view.emb (ix2 p q))
  rw [hout]
  refine stored_eq (V c main_v0) (V c main_arg2) (V c main_v1) _ _ _ p q _ (fun k => ?_) (fun k => ?_) ?_
  · show V c main_v0 (((cfg0.win 0).blk t).view.emb (ix2 p k)) = V c main_v0 (ix2 (⟨t.val * 1024 + p.val, hrow⟩ : Fin 8192) k)
    refine congrArg (V c main_v0) ?_
    funext a; apply Fin.ext
    match a with
    | ⟨0, _⟩ => show win0_0.index t (0 : Fin 2) * 1024 + 1 * p.val = t.val * 1024 + p.val; rw [e00]; omega
    | ⟨1, _⟩ => show win0_0.index t (1 : Fin 2) * 256 + 1 * k.val = k.val; rw [e01]; omega
  · show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 256 + 1 * k.val = k.val; rw [e10]; omega
    | ⟨1, _⟩ => show win0_1.index t (1 : Fin 2) * 32 + 1 * q.val = q.val; rw [e11]; omega
  · show V c main_v1 (((cfg0.win 2).blk t).view.emb (ix2 (0 : Fin 1) q)) = V c main_v1 (ix2 (0 : Fin 1) q)
    refine congrArg (V c main_v1) ?_
    funext a; apply Fin.ext
    match a with
    | ⟨0, _⟩ => show win0_2.index t (0 : Fin 2) * 1 + 1 * 0 = 0; rw [e20]
    | ⟨1, _⟩ => show win0_2.index t (1 : Fin 2) * 32 + 1 * q.val = q.val; rw [e21]; omega

/-- An index of the output array is in point `t`'s block iff each coordinate is in the block's range on its axis. -/
theorem mem_block0 (t : Fin cfg0.N) (i : S8192x32.Idx) :
    i ∈ ((cfg0.win 3).blk t).view.set ↔ ∀ a : Fin 2, win0_3.index t a * S1024x32.size a ≤ (i a).val ∧ (i a).val < win0_3.index t a * S1024x32.size a + S1024x32.size a := by
  show i ∈ ((View.whole main_v2).slice (win0_3.rect t)).set ↔ _
  rw [View.set_slice_whole, Rect.mem_set_unit]
  exact Iff.rfl

/-- Every row lies in the block of the point numbered by the row's quotient by 1024. -/
theorem cover0 (i : S8192x32.Idx) : ∃ t : Fin cfg0.N, (cfg0.win 3).flush t = true ∧ i ∈ ((cfg0.win 3).blk t).view.set := by
  have hi0 : (i 0).val < 8192 := (i 0).isLt
  have hi1 : (i 1).val < 32 := (i 1).isLt
  have hN : cfg0.N = 8 := N_0
  refine ⟨⟨(i 0).val / 1024, by rw [hN]; omega⟩, flush0_3 _, ?_⟩
  rw [mem_block0]
  obtain ⟨-, -, -, -, -, -, e30, e31⟩ := block_index ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e30]; show (i 0).val / 1024 * 1024 ≤ (i 0).val ∧ (i 0).val < (i 0).val / 1024 * 1024 + 1024; omega
  | ⟨1, _⟩ =>
    show win0_3.index _ (1 : Fin 2) * 32 ≤ (i 1).val ∧ (i 1).val < win0_3.index _ (1 : Fin 2) * 32 + 32
    rw [e31]; omega

/-- The output array after region 0: `flatVec` of the three input arrays as the region finds them. -/
theorem final0 (c : Dev nD) :
    (dat0 V c).arrAt 3 cfg0.N = flatVec (V c main_v0) (V c main_arg2) (V c main_v1) :=
  (dat0 V c).arrAt_eq_of_cover 3 (flatVec (V c main_v0) (V c main_arg2) (V c main_v1)) (fun t _ => flushed0 V c t) cover0

end Cert.KernelIdeal.ProjValue

end
-- ==== Proof.KICat.lean ====
/-
  Region 1 as one function of the arrays it finds.

  The grid is 16 x 4: point `t` handles batch `t / 4` and the band of rows `64·(t % 4) … 64·(t % 4) + 63`.  It reads
  that band of the spatial array (48 channels, channel-first) and of the scattered map (32 channels, channel-last) and
  writes back the same band of the result (80 channels, channel-first).  The body's two stores make the block one
  function of the two input blocks: channel `ch < 48` is the spatial block's channel `ch`, channel `ch ≥ 48` the
  scattered block's channel `ch - 48` with the channel axis moved.  So what point `t` writes back is block `t` of
  `assembled` of the two arrays; the 64 blocks tile the result; hence the result array ends as `assembled` of them.
-/
import proofs.«125766_j36103495090600_2_alg».proof.Proof.KIBodies
import proofs.«125766_j36103495090600_2_alg».proof.Proof.Spec
import Idealize.ShloMosaic.Lib.ValueIdx
import Idealize.ShloMosaic.Lib.Pipeline.Value

set_option maxRecDepth 16384

noncomputable section

namespace Cert.KernelIdeal.CatValue

open Cert.KernelIdeal Cert.KernelIdeal.Gen Cert.KernelIdeal.Bodies Cert.ScatterSpec
open Idealize.ShloMosaic Idealize.ShloMosaic.TcCoe Idealize.ShloMosaic.ValueIdx
open Idealize.SL Idealize.SL.Sem
open Idealize.ShloMosaic.Pipeline (Dat Cfg Window)

/-! ## The block the body leaves -/

/-- The output block as one function of the two input blocks. -/
def catBlock (x0 : S1x48x64x256.Idx → EReal) (x1 : S1x64x256x32.Idx → EReal) : S1x80x64x256.Idx → EReal :=
  fun y => if h : (y 1).val < 48 then x0 (ix4 (y 0) (⟨(y 1).val, h⟩ : Fin 48) (y 2) (y 3))
    else x1 (ix4 (y 0) (y 2) (y 3) (⟨(y 1).val - 48, by have h80 : (y 1).val < 80 := (y 1).isLt; omega⟩ : Fin 32))

/-- The scattered block with its channel axis moved from last to second place, at an index. -/
theorem moved_at (v : Vec Ideal S1x64x256x32 .f32) (a : Fin 1) (ch : Fin 32) (r : Fin 64) (w : Fin 256) :
    k1_pay1 (F := Ideal) v (ix4 a ch r w) = v (ix4 a r w ch) := by
  unfold k1_pay1
  rw [shapeCast_self]
  exact transpose_apply _ v transposes_S1x64x256x32_p0_3_1_2_S1x32x64x256 (ix4 a ch r w) (ix4 a r w ch) (fun b => by
    match b with
    | ⟨0, _⟩ => rfl
    | ⟨1, _⟩ => rfl
    | ⟨2, _⟩ => rfl
    | ⟨3, _⟩ => rfl)

/-- The two stores leave `catBlock` of the input blocks. -/
theorem catOut_eq (x0 : Vec Ideal S1x48x64x256 .f32) (x1 : Vec Ideal S1x64x256x32 .f32) :
    catOut (F := Ideal) x0 x1 = catBlock x0 x1 := by
  funext y
  unfold catOut
  refine View.canon_apply_of_pieces (Val := Elt Ideal) (S := S1x80x64x256) (e := .f32) (catBlock x0 x1) _ (fun p hp => ?_) y (catCover _ _ y)
  rcases List.mem_cons.mp hp with rfl | hp
  · -- channels 48..79: the moved scattered block
    intro x
    obtain ⟨a, ch, r, w, rfl⟩ : ∃ (a : Fin 1) (ch : Fin 32) (r : Fin 64) (w : Fin 256), x = ix4 a ch r w :=
      ⟨x 0, x 1, x 2, x 3, eq_ix4 x⟩
    have hch : ch.val < 32 := ch.isLt
    have hemb : rHigh.emb (ix4 a ch r w) = (ix4 a (⟨48 + ch.val, by omega⟩ : Fin 80) r w : S1x80x64x256.Idx) := by
      funext b; apply Fin.ext
      match b with
      | ⟨0, _⟩ => show 0 + 1 * a.val = a.val; omega
      | ⟨1, _⟩ => show 48 + 1 * ch.val = 48 + ch.val; omega
      | ⟨2, _⟩ => show 0 + 1 * r.val = r.val; omega
      | ⟨3, _⟩ => show 0 + 1 * w.val = w.val; omega
    show k1_pay1 (F := Ideal) (View.ld x1 rScat) (ix4 a ch r w) = catBlock x0 x1 (rHigh.emb (ix4 a ch r w))
    rw [hemb, moved_at, View.ld_unit_zero (S := S1x64x256x32) (funext fun b => by fin_cases b <;> rfl)]
    unfold catBlock
    rw [dif_neg (show ¬ (48 + ch.val) < 48 by omega)]
    refine congrArg x1 ?_
    funext b; apply Fin.ext
    match b with
    | ⟨0, _⟩ => rfl
    | ⟨1, _⟩ => rfl
    | ⟨2, _⟩ => rfl
    | ⟨3, _⟩ => show ch.val = 48 + ch.val - 48; omega
  · -- channels 0..47: the spatial block
    rcases List.mem_singleton.mp hp with rfl
    intro x
    obtain ⟨a, ch, r, w, rfl⟩ : ∃ (a : Fin 1) (ch : Fin 48) (r : Fin 64) (w : Fin 256), x = ix4 a ch r w :=
      ⟨x 0, x 1, x 2, x 3, eq_ix4 x⟩
    have hch : ch.val < 48 := ch.isLt
    have hemb : rLow.emb (ix4 a ch r w) = (ix4 a (⟨ch.val, by omega⟩ : Fin 80) r w : S1x80x64x256.Idx) := by
      funext b; apply Fin.ext
      match b with
      | ⟨0, _⟩ => show 0 + 1 * a.val = a.val; omega
      | ⟨1, _⟩ => show 0 + 1 * ch.val = ch.val; omega
      | ⟨2, _⟩ => show 0 + 1 * r.val = r.val; omega
      | ⟨3, _⟩ => show 0 + 1 * w.val = w.val; omega
    show View.ld x0 rSpat (ix4 a ch r w) = catBlock x0 x1 (rLow.emb (ix4 a ch r w))
    rw [hemb, View.ld_unit_zero (S := S1x48x64x256) (funext fun b => by fin_cases b <;> rfl)]
    unfold catBlock
    rw [dif_pos (show ch.val < 48 from hch)]

/-! ## From blocks to the array -/

variable (V : (c : Dev nD) → (b : Ref sig .tc) → Buf (Elt Ideal) ((c : Thread nD τ).loc b))

/-- Where the blocks sit: batch `t / 4`, row band `t % 4`, every other block index zero. -/
theorem block_index : ∀ t : Fin cfg1.N,
    win1_0.index t (0 : Fin 4) = t.val / 4 ∧ win1_0.index t (1 : Fin 4) = 0 ∧ win1_0.index t (2 : Fin 4) = t.val % 4 ∧ win1_0.index t (3 : Fin 4) = 0
    ∧ win1_1.index t (0 : Fin 4) = t.val / 4 ∧ win1_1.index t (1 : Fin 4) = t.val % 4 ∧ win1_1.index t (2 : Fin 4) = 0 ∧ win1_1.index t (3 : Fin 4) = 0
    ∧ win1_2.index t (0 : Fin 4) = t.val / 4 ∧ win1_2.index t (1 : Fin 4) = 0 ∧ win1_2.index t (2 : Fin 4) = t.val % 4 ∧ win1_2.index t (3 : Fin 4) = 0 :=
  (by decide +kernel : ∀ t : Fin grid1.N, _)

/-- What point `t` writes back is block `t` of `assembled` of the arrays the region finds. -/
theorem flushed1 (c : Dev nD) (t : Fin cfg1.N) :
    (dat1 V c).flushed 2 t = ((cfg1.win 2).blk t).view.read (Elt Ideal) (assembled (V c main_arg0) (V c main_v31)) := by
  show (cfg1.win 2).cut (grid1.coords t) ((dat1 V c).after 2 t) = _
  rw [dat1_after2, catOut_eq]
  obtain ⟨a0, a1, a2, a3, b0, b1, b2, b3, o0, o1, o2, o3⟩ := block_index t
  have ht : t.val < 64 := lt_of_lt_of_eq t.isLt (N_1 : cfg1.N = 64)
  refine funext fun (y : S1x80x64x256.Idx) => ?_
  obtain ⟨a, ch, r, w, rfl⟩ : ∃ (a : Fin 1) (ch : Fin 80) (r : Fin 64) (w : Fin 256), y = ix4 a ch r w :=
    ⟨y 0, y 1, y 2, y 3, eq_ix4 y⟩
  have ha : a.val = 0 := by have := a.isLt; omega
  have hch : ch.val < 80 := ch.isLt
  have hr : r.val < 64 := r.isLt
  have hbat : t.val / 4 < 16 := by omega
  have hrow : t.val % 4 * 64 + r.val < 256 := by omega
  have hout : ((cfg1.win 2).blk t).view.emb (ix4 a ch r w)
      = (ix4 (⟨t.val / 4, hbat⟩ : Fin 16) ch (⟨t.val % 4 * 64 + r.val, hrow⟩ : Fin 256) w : S16x80x256x256.Idx) := by
    funext b; apply Fin.ext
    match b with
    | ⟨0, _⟩ => show win1_2.index t (0 : Fin 4) * 1 + 1 * a.val = t.val / 4; rw [o0]; omega
    | ⟨1, _⟩ => show win1_2.index t (1 : Fin 4) * 80 + 1 * ch.val = ch.val; rw [o1]; omega
    | ⟨2, _⟩ => show win1_2.index t (2 : Fin 4) * 64 + 1 * r.val = t.val % 4 * 64 + r.val; rw [o2]; omega
    | ⟨3, _⟩ => show win1_2.index t (3 : Fin 4) * 256 + 1 * w.val = w.val; rw [o3]; omega
  show catBlock (blk1 V c 0 t) (blk1 V c 1 t) (ix4 a ch r w)
      = assembled (V c main_arg0) (V c main_v31) (((cfg1.win 2).blk t).view.emb (ix4 a ch r w))
  rw [hout]
  unfold catBlock assembled
  by_cases h48 : ch.val < 48
  · rw [dif_pos (show ((ix4 a ch r w : S1x80x64x256.Idx) 1).val < 48 from h48),
      dif_pos (show ((ix4 (⟨t.val / 4, hbat⟩ : Fin 16) ch (⟨t.val % 4 * 64 + r.val, hrow⟩ : Fin 256) w : S16x80x256x256.Idx) 1).val < 48 from h48)]
    show V c main_arg0 (((cfg1.win 0).blk t).view.emb (ix4 a (⟨ch.val, h48⟩ : Fin 48) r w)) = V c main_arg0 _
    refine congrArg (V c main_arg0) ?_
    funext b; apply Fin.ext
    match b with
    | ⟨0, _⟩ => show win1_0.index t (0 : Fin 4) * 1 + 1 * a.val = t.val / 4; rw [a0]; omega
    | ⟨1, _⟩ => show win1_0.index t (1 : Fin 4) * 48 + 1 * ch.val = ch.val; rw [a1]; omega
    | ⟨2, _⟩ => show win1_0.index t (2 : Fin 4) * 64 + 1 * r.val = t.val % 4 * 64 + r.val; rw [a2]; omega
    | ⟨3, _⟩ => show win1_0.index t (3 : Fin 4) * 256 + 1 * w.val = w.val; rw [a3]; omega
  · rw [dif_neg (show ¬ ((ix4 a ch r w : S1x80x64x256.Idx) 1).val < 48 from h48),
      dif_neg (show ¬ ((ix4 (⟨t.val / 4, hbat⟩ : Fin 16) ch (⟨t.val % 4 * 64 + r.val, hrow⟩ : Fin 256) w : S16x80x256x256.Idx) 1).val < 48 from h48)]
    show V c main_v31 (((cfg1.win 1).blk t).view.emb (ix4 a r w (⟨ch.val - 48, by omega⟩ : Fin 32))) = V c main_v31 _
    refine congrArg (V c main_v31) ?_
    funext b; apply Fin.ext
    match b with
    | ⟨0, _⟩ => show win1_1.index t (0 : Fin 4) * 1 + 1 * a.val = t.val / 4; rw [b0]; omega
    | ⟨1, _⟩ => show win1_1.index t (1 : Fin 4) * 64 + 1 * r.val = t.val % 4 * 64 + r.val; rw [b1]; omega
    | ⟨2, _⟩ => show win1_1.index t (2 : Fin 4) * 256 + 1 * w.val = w.val; rw [b2]; omega
    | ⟨3, _⟩ => show win1_1.index t (3 : Fin 4) * 32 + 1 * (ch.val - 48) = ch.val - 48; rw [b3]; omega

/-- An index of the result array is in point `t`'s block iff each coordinate is in the block's range on its axis. -/
theorem mem_block1 (t : Fin cfg1.N) (i : S16x80x256x256.Idx) :
    i ∈ ((cfg1.win 2).blk t).view.set ↔ ∀ a : Fin 4, win1_2.index t a * S1x80x64x256.size a ≤ (i a).val ∧ (i a).val < win1_2.index t a * S1x80x64x256.size a + S1x80x64x256.size a := by
  show i ∈ ((View.whole main_v32).slice (win1_2.rect t)).set ↔ _
  rw [View.set_slice_whole, Rect.mem_set_unit]
  exact Iff.rfl

/-- Every index lies in the block of the point numbered by its batch and its row band. -/
theorem cover1 (i : S16x80x256x256.Idx) : ∃ t : Fin cfg1.N, (cfg1.win 2).flush t = true ∧ i ∈ ((cfg1.win 2).blk t).view.set := by
  have hi0 : (i 0).val < 16 := (i 0).isLt
  have hi1 : (i 1).val < 80 := (i 1).isLt
  have hi2 : (i 2).val < 256 := (i 2).isLt
  have hi3 : (i 3).val < 256 := (i 3).isLt
  have hN : cfg1.N = 64 := N_1
  have hlt : (i 0).val * 4 + (i 2).val / 64 < cfg1.N := by rw [hN]; omega
  refine ⟨⟨(i 0).val * 4 + (i 2).val / 64, hlt⟩, flush1_2 _, ?_⟩
  rw [mem_block1]
  obtain ⟨-, -, -, -, -, -, -, -, o0, o1, o2, o3⟩ := block_index ⟨(i 0).val * 4 + (i 2).val / 64, hlt⟩
  intro a
  match a with
  | ⟨0, _⟩ =>
    show win1_2.index _ (0 : Fin 4) * 1 ≤ (i 0).val ∧ (i 0).val < win1_2.index _ (0 : Fin 4) * 1 + 1
    rw [o0]; show ((i 0).val * 4 + (i 2).val / 64) / 4 * 1 ≤ (i 0).val ∧ (i 0).val < ((i 0).val * 4 + (i 2).val / 64) / 4 * 1 + 1; omega
  | ⟨1, _⟩ =>
    show win1_2.index _ (1 : Fin 4) * 80 ≤ (i 1).val ∧ (i 1).val < win1_2.index _ (1 : Fin 4) * 80 + 80
    rw [o1]; omega
  | ⟨2, _⟩ =>
    show win1_2.index _ (2 : Fin 4) * 64 ≤ (i 2).val ∧ (i 2).val < win1_2.index _ (2 : Fin 4) * 64 + 64
    rw [o2]; show ((i 0).val * 4 + (i 2).val / 64) % 4 * 64 ≤ (i 2).val ∧ (i 2).val < ((i 0).val * 4 + (i 2).val / 64) % 4 * 64 + 64; omega
  | ⟨3, _⟩ =>
    show win1_2.index _ (3 : Fin 4) * 256 ≤ (i 3).val ∧ (i 3).val < win1_2.index _ (3 : Fin 4) * 256 + 256
    rw [o3]; omega

/-- The result array after region 1: `assembled` of the spatial array and the scattered map as the region finds them. -/
theorem final1 (c : Dev nD) :
    (dat1 V c).arrAt 2 cfg1.N = assembled (V c main_arg0) (V c main_v31) :=
  (dat1 V c).arrAt_eq_of_cover 2 (assembled (V c main_arg0) (V c main_v31)) (fun t _ => flushed1 V c t) cover1

end Cert.KernelIdeal.CatValue

end
-- ==== Proof.KIHost.lean ====
/-
  The kernel program's result as one function of its arguments.

  The host stretches between and before the regions, read back: the first flattens the embeddings to 8192 rows and
  turns the bias into a one-row matrix; the second un-flattens region 0's output to per-entity channel vectors, builds
  the index triples from the entity locations and scatters the vectors into a zero map.  With the two regions' closed
  forms the result array is `assembled` of the spatial array and that scattered map; and un-flattening `flatVec` of
  the flattened embeddings is `entityVec` of the embeddings (row `512·s + n` of the flat matrix is entity `(s, n)`).
-/
import proofs.«125766_j36103495090600_2_alg».proof.Proof.KIWhole
import proofs.«125766_j36103495090600_2_alg».proof.Proof.KIProj
import proofs.«125766_j36103495090600_2_alg».proof.Proof.KICat
import Idealize.ShloMosaic.Lib.StableHlo.Run

set_option maxRecDepth 16384

noncomputable section

namespace Cert.KernelIdeal.HostValue

open Cert.KernelIdeal Cert.KernelIdeal.Gen Cert.KernelIdeal.Bodies Cert.KernelIdeal.Whole Cert.ScatterSpec
open Idealize.ShloMosaic Idealize.ShloMosaic.TcCoe Idealize.ShloMosaic.ValueIdx Idealize.ShloMosaic.StableHlo
open Idealize.SL Idealize.SL.Sem

section Stages
variable {F : FTy → Type} [FloatOps F]

/-! ## The result, stage by stage (the patch: the run's post is stated through these names) -/

/-- The scatter's index triples: per entity its batch number, row and column, each wrapped once if negative. -/
def locs (a4 : (⟨S16x512x2, .i32⟩ : BufTy).Contents (Elt F)) : (⟨S16x512x3, .i32⟩ : BufTy).Contents (Elt F) :=
  concatenate S16x512x3 2 [⟨S16x512x1, (broadcastInDim S16x512x1 ![0, 1] bcast_S16x512_S16x512x1_0_1 (broadcastInDim S16x512 ![0, 1] bcast_S16x1_S16x512_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x512x1, (broadcastInDim S16x512x1 ![0, 1] bcast_S16x512_S16x512x1_0_1 (select (cmpi .slt (shapeCast _ (extractStridedSlice S16x512x1 ![0, 0, 0] a4 slices_S16x512x2_S16x512x1_0_0_0) shapeCasts_S16x512x1_S16x512) (broadcastInDim S16x512 ![] bcast_S_S16x512 (constantI S_ 32 0#32))) (addi (shapeCast _ (extractStridedSlice S16x512x1 ![0, 0, 0] a4 slices_S16x512x2_S16x512x1_0_0_0) shapeCasts_S16x512x1_S16x512) (broadcastInDim S16x512 ![] bcast_S_S16x512 (constantI S_ 32 256#32))) (shapeCast _ (extractStridedSlice S16x512x1 ![0, 0, 0] a4 slices_S16x512x2_S16x512x1_0_0_0) shapeCasts_S16x512x1_S16x512)))⟩, ⟨S16x512x1, (broadcastInDim S16x512x1 ![0, 1] bcast_S16x512_S16x512x1_0_1 (select (cmpi .slt (shapeCast _ (extractStridedSlice S16x512x1 ![0, 0, 1] a4 slices_S16x512x2_S16x512x1_0_0_1) shapeCasts_S16x512x1_S16x512) (broadcastInDim S16x512 ![] bcast_S_S16x512 (constantI S_ 32 0#32))) (addi (shapeCast _ (extractStridedSlice S16x512x1 ![0, 0, 1] a4 slices_S16x512x2_S16x512x1_0_0_1) shapeCasts_S16x512x1_S16x512) (broadcastInDim S16x512 ![] bcast_S_S16x512 (constantI S_ 32 256#32))) (shapeCast _ (extractStridedSlice S16x512x1 ![0, 0, 1] a4 slices_S16x512x2_S16x512x1_0_0_1) shapeCasts_S16x512x1_S16x512)))⟩] concatenates_S16x512x1_S16x512x1_S16x512x1_S16x512x3_d2

/-- The map the updates are scattered into: all zeros. -/
def zeroMap : (⟨S16x256x256x32, .f32⟩ : BufTy).Contents (Elt F) :=
  broadcastInDim S16x256x256x32 ![] bcast_S_S16x256x256x32 (constant S_ .f32 0x00000000#32)

/-- The scatter of per-entity channel vectors `u` at the index triples of `a4`. -/
def scatMap (a4 : (⟨S16x512x2, .i32⟩ : BufTy).Contents (Elt F)) (u : (⟨S16x512x32, .f32⟩ : BufTy).Contents (Elt F)) :
    (⟨S16x256x256x32, .f32⟩ : BufTy).Contents (Elt F) :=
  Host.scatter scatter_S16x256x256x32_S16x512x3_S16x512x32_2_012_012_2 (fun _ b => b) zeroMap (locs a4) u

/-- The first stretch flattens the embeddings, -/
theorem flat_embeddings (W : Valuation τ sig (Elt F)) :
    StableHlo.after hostOps0 W (Proc.devRef .tc main_v0)
      = (shapeCast S8192x256 (W (Proc.devRef .tc main_arg1)) shapeCasts_S16x512x256_S8192x256 : (⟨S8192x256, .f32⟩ : BufTy).Contents (Elt F)) := by
  after_results <;> rfl
/-- and makes the bias a one-row matrix. -/
theorem row_bias (W : Valuation τ sig (Elt F)) :
    StableHlo.after hostOps0 W (Proc.devRef .tc main_v1)
      = (shapeCast S1x32 (W (Proc.devRef .tc main_arg3)) shapeCasts_S32_S1x32 : (⟨S1x32, .f32⟩ : BufTy).Contents (Elt F)) := by
  after_results <;> rfl

set_option maxRecDepth 65536 in
set_option maxHeartbeats 2000000 in
/-- The second stretch leaves the scatter of region 0's un-flattened output at the index triples. -/
theorem scattered (W : Valuation τ sig (Elt F)) :
    StableHlo.after hostOps1 W (Proc.devRef .tc main_v31)
      = scatMap (W (Proc.devRef .tc main_arg4))
          (shapeCast S16x512x32 (W (Proc.devRef .tc main_v2)) shapeCasts_S8192x32_S16x512x32 : (⟨S16x512x32, .f32⟩ : BufTy).Contents (Elt F)) := by
  after_results <;> rfl

end Stages

/-- Un-flattening `flatVec` of the flattened embeddings and the one-row bias gives `entityVec`. -/
theorem unflatten (a1 : S16x512x256.Idx → EReal) (a2 : S256x32.Idx → EReal) (a3 : S32.Idx → EReal) :
    shapeCast S16x512x32 (flatVec (shapeCast S8192x256 a1 shapeCasts_S16x512x256_S8192x256) a2 (shapeCast S1x32 a3 shapeCasts_S32_S1x32))
        shapeCasts_S8192x32_S16x512x32 = entityVec a1 a2 a3 := by
  funext i
  obtain ⟨s, n, ch, rfl⟩ : ∃ (s : Fin 16) (n : Fin 512) (ch : Fin 32), i = ix3 s n ch := ⟨i 0, i 1, i 2, eq_ix3 i⟩
  have hrow : s.val * 512 + n.val < 8192 := by have := s.isLt; have := n.isLt; omega
  refine (shapeCast_apply _ shapeCasts_S8192x32_S16x512x32 (ix3 s n ch) (ix2 (⟨s.val * 512 + n.val, hrow⟩ : Fin 8192) ch) (by
    rw [Shape.rowMajor_val_two, Shape.rowMajor_val_three]; rfl)).trans ?_
  show (∑ k : Fin 256, shapeCast S8192x256 a1 shapeCasts_S16x512x256_S8192x256 (ix2 (⟨s.val * 512 + n.val, hrow⟩ : Fin 8192) k) * a2 (ix2 k ch))
      + shapeCast S1x32 a3 shapeCasts_S32_S1x32 (ix2 (0 : Fin 1) ch) = (∑ k : Fin 256, a1 (ix3 s n k) * a2 (ix2 k ch)) + a3 (ix1 ch)
  rw [shapeCast_apply a3 shapeCasts_S32_S1x32 (ix2 (0 : Fin 1) ch) (ix1 ch) (by
    rw [Shape.rowMajor_val_one, Shape.rowMajor_val_two]; show ch.val = 0 * 32 + ch.val; omega)]
  refine congrArg (· + a3 (ix1 ch)) (Finset.sum_congr rfl fun k _ => ?_)
  rw [shapeCast_apply a1 shapeCasts_S16x512x256_S8192x256 (ix2 (⟨s.val * 512 + n.val, hrow⟩ : Fin 8192) k) (ix3 s n k) (by
    rw [Shape.rowMajor_val_three, Shape.rowMajor_val_two]; rfl)]

variable (m : (ℓ : Loc nD τ sig) → Buf (Elt Ideal) ℓ)

/-- What region 0 finds: the flattened embeddings, the weights, the one-row bias. -/
theorem found_emb (c : Dev nD) : E1 m c main_v0 = shapeCast S8192x256 (m ((c : Thread nD τ).loc main_arg1)) shapeCasts_S16x512x256_S8192x256 :=
  flat_embeddings (B0 m c)
theorem found_bias (c : Dev nD) : E1 m c main_v1 = shapeCast S1x32 (m ((c : Thread nD τ).loc main_arg3)) shapeCasts_S32_S1x32 :=
  row_bias (B0 m c)
theorem found_wgt (c : Dev nD) : E1 m c main_arg2 = m ((c : Thread nD τ).loc main_arg2) := B1_of m c main_arg2 (by decide)

/-- What region 0 leaves in its output array. -/
theorem left_proj (c : Dev nD) : B2 m c (Proc.devRef .tc main_v2)
    = flatVec (shapeCast S8192x256 (m ((c : Thread nD τ).loc main_arg1)) shapeCasts_S16x512x256_S8192x256) (m ((c : Thread nD τ).loc main_arg2))
        (shapeCast S1x32 (m ((c : Thread nD τ).loc main_arg3)) shapeCasts_S32_S1x32) := by
  refine (B2_arr m c 3).trans ((ProjValue.final0 (E1 m) c).trans ?_)
  rw [found_emb, found_bias, found_wgt]

/-- What region 1 finds: the spatial array as launched, and the scattered per-entity vectors. -/
theorem found_spatial (c : Dev nD) : E3 m c main_arg0 = m ((c : Thread nD τ).loc main_arg0) :=
  (B3_of m c main_arg0 (by decide)).trans ((B2_of_ne m c main_arg0 (by decide)).trans (B1_of m c main_arg0 (by decide)))
theorem found_scattered (c : Dev nD) : E3 m c main_v31
    = scatMap (m ((c : Thread nD τ).loc main_arg4))
        (entityVec (m ((c : Thread nD τ).loc main_arg1)) (m ((c : Thread nD τ).loc main_arg2)) (m ((c : Thread nD τ).loc main_arg3))) := by
  refine (scattered (B2 m c)).trans ?_
  rw [left_proj, unflatten]
  exact congrArg (scatMap · _) ((B2_of_ne m c main_arg4 (by decide)).trans (B1_of m c main_arg4 (by decide)))

/-- THE KERNEL'S RESULT: region 1's output array, as a function of the arguments. -/
theorem result_eq (c : Dev nD) : (dat1 (E3 m) c).arrAt 2 cfg1.N
    = assembled (m ((c : Thread nD τ).loc main_arg0))
        (scatMap (m ((c : Thread nD τ).loc main_arg4))
          (entityVec (m ((c : Thread nD τ).loc main_arg1)) (m ((c : Thread nD τ).loc main_arg2)) (m ((c : Thread nD τ).loc main_arg3)))) := by
  rw [CatValue.final1, found_spatial, found_scattered]

end Cert.KernelIdeal.HostValue

end
-- ==== Proof.RefValue.lean ====
/-
  The reference's result as the same function of its arguments: its product-plus-bias is `entityVec` (the host's
  contraction over the embedding axis is the plain sum over the extended reals; the bias is broadcast along the
  channel axis), and its transpose-then-concatenate is `assembled`.
-/
import proofs.«125766_j36103495090600_2_alg».proof.Proof.RefRun
import proofs.«125766_j36103495090600_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RunP Cert.ScatterSpec
open Idealize.ShloMosaic Idealize.ShloMosaic.ValueIdx

/-- The contraction's record, under a short name. -/
abbrev D := dot_S16x512x256_S256x32_S16x512x32_2_0_01_1_n_n

theorem lhs0 (i : S16x512x32.Idx) (q : D.contr.Idx) : (D.lhsIdx i q 0).val = (i 0).val := by
  unfold DotDims.lhsIdx
  rw [dif_neg (show ¬(0 : Fin S16x512x256.rank) ∈ D.lhsBatch by decide), dif_pos (show (0 : Fin S16x512x256.rank) ∈ D.lhsNonContracting by decide)]
  rfl
theorem lhs1 (i : S16x512x32.Idx) (q : D.contr.Idx) : (D.lhsIdx i q 1).val = (i 1).val := by
  unfold DotDims.lhsIdx
  rw [dif_neg (show ¬(1 : Fin S16x512x256.rank) ∈ D.lhsBatch by decide), dif_pos (show (1 : Fin S16x512x256.rank) ∈ D.lhsNonContracting by decide)]
  rfl
theorem lhs2 (i : S16x512x32.Idx) (q : D.contr.Idx) : (D.lhsIdx i q 2).val = (q ⟨0, by decide⟩).val :=
  D.lhsIdx_val_of_single rfl i q
theorem rhs0 (i : S16x512x32.Idx) (q : D.contr.Idx) : (D.rhsIdx i q 0).val = (q ⟨0, by decide⟩).val :=
  D.rhsIdx_val_of_single rfl i q
theorem rhs1 (i : S16x512x32.Idx) (q : D.contr.Idx) : (D.rhsIdx i q 1).val = (i 2).val := by
  unfold DotDims.rhsIdx
  rw [dif_neg (show ¬(1 : Fin S256x32.rank) ∈ D.rhsBatch by decide), dif_pos (show (1 : Fin S256x32.rank) ∈ D.rhsNonContracting by decide)]
  rfl

/-- The host's contraction at entity `(s, n)`, channel `ch`: the sum over the embedding axis. -/
theorem dot_at (a1 : FVec Ideal S16x512x256 .f32) (a2 : FVec Ideal S256x32 .f32) (s : Fin 16) (n : Fin 512) (ch : Fin 32) :
    Host.dotGeneral (F := Ideal) D none a1 a2 (ix3 s n ch) = ∑ k : Fin 256, a1 (ix3 s n k) * a2 (ix2 k ch) := by
  simp only [Host.dotGeneral]
  rw [Ideal.dotGeneral_apply, ← Equiv.sum_comp (ValueIdx.contrEquiv1 D 256 rfl rfl).symm]
  refine Finset.sum_congr rfl fun k _ => ?_
  have hk := ValueIdx.contrEquiv1_symm_val D 256 rfl rfl k
  have el : D.lhsIdx (ix3 s n ch) ((ValueIdx.contrEquiv1 D 256 rfl rfl).symm k) = ix3 s n k := funext fun a => Fin.ext (by
    match a with
    | ⟨0, _⟩ => exact lhs0 _ _
    | ⟨1, _⟩ => exact lhs1 _ _
    | ⟨2, _⟩ => exact (lhs2 _ _).trans hk)
  have er : D.rhsIdx (ix3 s n ch) ((ValueIdx.contrEquiv1 D 256 rfl rfl).symm k) = ix2 k ch := funext fun a => Fin.ext (by
    match a with
    | ⟨0, _⟩ => exact (rhs0 _ _).trans hk
    | ⟨1, _⟩ => exact rhs1 _ _)
  rw [el, er]

/-- The bias broadcast along the channel axis, at entity `(s, n)`, channel `ch`: the bias entry `ch`. -/
theorem bias_at (a3 : FVec Ideal S32 .f32) (s : Fin 16) (n : Fin 512) (ch : Fin 32) :
    broadcastInDim S16x512x32 ![0, 1, 2] bcast_S1x1x32_S16x512x32_0_1_2 (broadcastInDim S1x1x32 ![2] bcast_S32_S1x1x32_2 a3) (ix3 s n ch) = a3 (ix1 ch) := by
  refine (broadcastInDim_apply _ bcast_S1x1x32_S16x512x32_0_1_2 _ (ix3 s n ch) (ix3 (0 : Fin 1) (0 : Fin 1) ch) (fun a => by
    match a with
    | ⟨0, _⟩ => show (0 : Nat) = if (1 : Nat) = 1 then 0 else s.val; rw [if_pos rfl]
    | ⟨1, _⟩ => show (0 : Nat) = if (1 : Nat) = 1 then 0 else n.val; rw [if_pos rfl]
    | ⟨2, _⟩ => show ch.val = if (32 : Nat) = 1 then 0 else ch.val; rw [if_neg (by decide)])).trans ?_
  exact broadcastInDim_apply _ bcast_S32_S1x1x32_2 a3 (ix3 (0 : Fin 1) (0 : Fin 1) ch) (ix1 ch) (fun a => by
    match a with
    | ⟨0, _⟩ => show ch.val = if (32 : Nat) = 1 then 0 else ch.val; rw [if_neg (by decide)])

/-- The reference's per-entity vectors are `entityVec`. -/
theorem proj_eq (a1 : FVec Ideal S16x512x256 .f32) (a2 : FVec Ideal S256x32 .f32) (a3 : FVec Ideal S32 .f32) :
    proj (F := Ideal) a1 a2 a3 = entityVec a1 a2 a3 := by
  funext i
  obtain ⟨s, n, ch, rfl⟩ : ∃ (s : Fin 16) (n : Fin 512) (ch : Fin 32), i = ix3 s n ch := ⟨i 0, i 1, i 2, eq_ix3 i⟩
  unfold proj
  refine (addf_apply _ _ _).trans ?_
  rw [dot_at, bias_at]
  rfl

/-- The reference's transpose-then-concatenate is `assembled`. -/
theorem joined_eq (a0 : FVec Ideal S16x48x256x256 .f32) (sc : FVec Ideal S16x256x256x32 .f32) :
    joined (F := Ideal) a0 sc = assembled a0 sc := by
  funext i
  obtain ⟨b, ch, r, w, rfl⟩ : ∃ (b : Fin 16) (ch : Fin 80) (r : Fin 256) (w : Fin 256), i = ix4 b ch r w :=
    ⟨i 0, i 1, i 2, i 3, eq_ix4 i⟩
  have hch : ch.val < 80 := ch.isLt
  unfold joined assembled
  by_cases h48 : ch.val < 48
  · rw [dif_pos (show ((ix4 b ch r w : (⟨4, ![16, 80, 256, 256]⟩ : Shape).Idx) 1).val < 48 from h48)]
    exact concatenate_pair_apply_left 1 a0 _ concatenates_S16x48x256x256_S16x32x256x256_S16x80x256x256_d1 (ix4 b ch r w) rfl
      (ix4 b (⟨ch.val, h48⟩ : Fin 48) r w) (fun a => by
        match a with
        | ⟨0, _⟩ => rfl
        | ⟨1, _⟩ => rfl
        | ⟨2, _⟩ => rfl
        | ⟨3, _⟩ => rfl)
  · rw [dif_neg (show ¬ ((ix4 b ch r w : (⟨4, ![16, 80, 256, 256]⟩ : Shape).Idx) 1).val < 48 from h48)]
    refine (concatenate_pair_apply_right 1 a0 _ concatenates_S16x48x256x256_S16x32x256x256_S16x80x256x256_d1 (ix4 b ch r w) rfl rfl
      (ix4 b (⟨ch.val - 48, by omega⟩ : Fin 32) r w) (fun a ha => by
        match a with
        | ⟨0, _⟩ => rfl
        | ⟨1, _⟩ => exact absurd rfl ha
        | ⟨2, _⟩ => rfl
        | ⟨3, _⟩ => rfl) (by show ch.val - 48 + 48 = ch.val; omega)).trans ?_
    exact transpose_apply _ sc transposes_S16x256x256x32_S16x32x256x256_0_3_1_2 (ix4 b (⟨ch.val - 48, by omega⟩ : Fin 32) r w)
      (ix4 b r w (⟨ch.val - 48, by omega⟩ : Fin 32)) (fun a => by
        match a with
        | ⟨0, _⟩ => rfl
        | ⟨1, _⟩ => rfl
        | ⟨2, _⟩ => rfl
        | ⟨3, _⟩ => rfl)

end Cert.ReferenceIdeal.RefValue

end
-- ==== Proof.lean ====
/-
  Scattering projected entity embeddings into a spatial map: the Pallas program against its jnp reference, over the
  extended reals.

  Both programs compute, per entity `(s, n)`, the channel vector `∑ₖ e[s,n,k] · w[k,c] + b[c]`; build from the
  entity locations the same index triples (batch, row, column, each wrapped once if negative); scatter the vectors into
  a zero map at those triples, later writes winning; and return the 48 spatial channels followed by the map's 32
  channels moved from last to second place.

  The kernel program does the product in a pipelined region over eight blocks of 1024 flattened rows (rounding the
  operands to a narrower format first, which is the identity over the extended reals, into a zero accumulator, which
  adds nothing), scatters on the host, and assembles the result in a second pipelined region over 16 x 4 blocks, moving
  the channel axis inside the block.  The reference does one contraction, one scatter, one transpose and one
  concatenation on the host.  The index triples and the scatter are the same operations on the same inputs in both
  programs, so they are carried as one function and never opened; what is compared index by index is the per-entity
  vectors (`entityVec`) and the final assembly (`assembled`).  No law used needs finiteness: only the order of a sum,
  `0 + x = x`, and re-indexing.

  The frames: each program runs to the end, faults nowhere and leaves its arguments as launched — for the two kernel
  programs by following the unscoped buffers' contents through the two host stretches and the two regions
  (`Whole.frame`), for the reference by its run with the result dropped.  The idealization rewrote nothing, so
  `preserves` is trivial.
-/
import proofs.«125766_j36103495090600_2_alg».proof.Defs
import proofs.«125766_j36103495090600_2_alg».proof.Proof.Gen.Kernel
import proofs.«125766_j36103495090600_2_alg».proof.Proof.Gen.KernelIdeal
import proofs.«125766_j36103495090600_2_alg».proof.Proof.Gen.ReferenceIdeal
import proofs.«125766_j36103495090600_2_alg».proof.Proof.Gen.Pre_finite_inputs
import proofs.«125766_j36103495090600_2_alg».proof.Proof.KWhole
import proofs.«125766_j36103495090600_2_alg».proof.Proof.KIWhole
import proofs.«125766_j36103495090600_2_alg».proof.Proof.KIHost
import proofs.«125766_j36103495090600_2_alg».proof.Proof.RefRun
import proofs.«125766_j36103495090600_2_alg».proof.Proof.RefValue

noncomputable section

namespace Cert.Proof

open Idealize.ShloMosaic Idealize.ShloMosaic.TcCoe Idealize.SL.Sem Cert.ScatterSpec

theorem frame_kernel : Cert.frame_Kernel := fun m ρ _ => Cert.Kernel.Whole.frame m ρ
theorem frame_kernelIdeal : Cert.frame_KernelIdeal := fun m ρ _ => Cert.KernelIdeal.Whole.frame m ρ
theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- The scatter at the index triples is the same function in both programs: the same operations, in the same order,
    on the same entity locations. -/
theorem scatter_same (a4 : (⟨Cert.KernelIdeal.S16x512x2, .i32⟩ : BufTy).Contents (Elt Ideal))
    (u : (⟨Cert.KernelIdeal.S16x512x32, .f32⟩ : BufTy).Contents (Elt Ideal)) :
    Cert.ReferenceIdeal.RunP.scatMap (F := Ideal) a4 u = Cert.KernelIdeal.HostValue.scatMap (F := Ideal) a4 u := rfl

/-- From memories agreeing on the arguments both programs end with the result at `assembled` of the spatial array
    and the scatter of the per-entity vectors. -/
theorem algebraic : Cert.algebraic_KernelIdeal_ReferenceIdeal := by
  intro m ρ m' ρ' _ hagree
  refine ⟨fun c => assembled (m ((c.tc : Thread Cert.KernelIdeal.nD Cert.KernelIdeal.τ).loc Cert.KernelIdeal.main_arg0))
      (Cert.KernelIdeal.HostValue.scatMap (m ((c.tc : Thread Cert.KernelIdeal.nD Cert.KernelIdeal.τ).loc Cert.KernelIdeal.main_arg4))
        (entityVec (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)))), ?_, ?_⟩
  · exact (θ_run Cert.KernelIdeal.defs _ _).mono
      (fun r h c => ⟨(h c).1.trans (Cert.KernelIdeal.HostValue.result_eq m c), (h c).2⟩) (Cert.KernelIdeal.Whole.run_result m ρ)
  · refine (θ_run Cert.ReferenceIdeal.defs _ _).mono (fun _ h c => ⟨(h c).1.trans ?_, (h c).2⟩)
      (Cert.ReferenceIdeal.RunP.run (F := Ideal) m' ρ')
    rw [(hagree c).1, (hagree c).2.1, (hagree c).2.2.1, (hagree c).2.2.2.1, (hagree c).2.2.2.2,
      Cert.ReferenceIdeal.RefValue.proj_eq, Cert.ReferenceIdeal.RefValue.joined_eq, scatter_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
